-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2 : Shape := ⟨2, ![512, 2]⟩
abbrev S1 : Shape := ⟨1, ![1]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S512x2 .f32) (main_arg1 : FVec F S1 .f32) : IVec S_ 1 :=
  let main_v0 : FVec F S512x2 .f32 := Host.absf main_arg0
  let main_cst : FVec F S_ .f32 := constant S_ .f32 0x7F800000#32
  let main_v1 : FVec F S512x2 .f32 := broadcastInDim S512x2 ![] bcast_S_S512x2 main_cst
  let main_v2 : IVec S512x2 1 := cmpf .olt main_v0 main_v1
  let main_c : IVec S_ 1 := constantI S_ 1 1#1
  let main_v3 : IVec S_ 1 := (fun x v => Host.reduce IntOp.andi x v reducesTo_S512x2_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S512x2 : Shape := ⟨2, ![512, 2]⟩
abbrev S1 : Shape := ⟨1, ![1]⟩
abbrev S512x512 : Shape := ⟨2, ![512, 512]⟩
abbrev S512 : Shape := ⟨1, ![512]⟩
abbrev S2x512 : Shape := ⟨2, ![2, 512]⟩
abbrev S512x1 : Shape := ⟨2, ![512, 1]⟩
abbrev S1x512 : Shape := ⟨2, ![1, 512]⟩
abbrev S32x512 : Shape := ⟨2, ![32, 512]⟩
abbrev S32x128 : Shape := ⟨2, ![32, 128]⟩
abbrev S32x512x1 : Shape := ⟨3, ![32, 512, 1]⟩
abbrev S32x1x128 : Shape := ⟨3, ![32, 1, 128]⟩
abbrev S32x512x128 : Shape := ⟨3, ![32, 512, 128]⟩

abbrev nBuf : Space → Nat
  | .hbm => 4
  | .vmem => 10
  | .smem => 0
  | _ => 0

abbrev bufTy : (tb : Table) → Fin (tcTables nBuf tb) → BufTy
  | .hbm, ⟨0, _⟩ => ⟨S512x2, .f32⟩
  | .hbm, ⟨1, _⟩ => ⟨S1, .f32⟩
  | .hbm, ⟨2, _⟩ => ⟨S512x512, .f32⟩
  | .hbm, ⟨3, _⟩ => ⟨S512x512, .f32⟩
  | .local _ .vmem, ⟨0, _⟩ => ⟨S512x2, .f32⟩
  | .local _ .vmem, ⟨1, _⟩ => ⟨S512x512, .f32⟩
  | .local _ .vmem, ⟨2, _⟩ => ⟨S1, .f32⟩
  | .local _ .vmem, ⟨3, _⟩ => ⟨S32x512, .f32⟩
  | .local _ .vmem, ⟨4, _⟩ => ⟨S32x512, .f32⟩
  | .local _ .vmem, ⟨5, _⟩ => ⟨S32x128, .f32⟩
  | .local _ .vmem, ⟨6, _⟩ => ⟨S32x128, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | _, _ => ⟨S512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_9 : BitVec 32 := 0#32
  let v25 : BitVec 1 := Scalar.cmpi .ne v24 c0_i32_9
  v25

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x2_S512x2_0_0 : ∀ a, (![0, 0] : Fin 2 → Nat) a + S512x2.size a ≤ S512x2.size a
  h_S512x2 : 0 < S512x2.numel
  reduces_S512x2_S512 : S512x2.Reduces [1] S512
  transposes_S512x2_p1_0_S2x512 : S512x2.Transposes [1, 0] S2x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1_S1_0 : ∀ a, (![0] : Fin 1 → Nat) a + S1.size a ≤ S1.size a
  h_S1 : 0 < S1.numel
  inpos_S1_p0 : ∀ a, (![0] : Fin 1 → Nat) a < S1.size a
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x512_S32x512x1 : S32x512.ShapeCasts S32x512x1
  shapeCasts_S32x128_S32x1x128 : S32x128.ShapeCasts S32x1x128
  broadcasts_S32x512x1_S32x512x128 : S32x512x1.Broadcasts S32x512x128
  broadcasts_S32x1x128_S32x512x128 : S32x1x128.Broadcasts S32x512x128
  reduces_S32x512x128_S32x512 : S32x512x128.Reduces [2] S32x512
  dot_S512x2_S2x512_S512x512_1_0_0_1_n_n_wf : DotDims.WF S512x2 S2x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S512x2.size a
  hwx0_0 : ∀ i : grid0.Coords, EltTy.bits .f32 = 32 ∨ (Rect.block (s := S512x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1.size a ≤ S1.size a
  hwx1_0 : ∀ i : grid1.Coords, EltTy.bits .f32 = 32 ∨ (Rect.block (s := S1) S1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S512x512.size a
  hwx1_1 : ∀ i : grid1.Coords, EltTy.bits .f32 = 32 ∨ (Rect.block (s := S512x512) S32x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S512x512.size a
  hwx1_2 : ∀ i : grid1.Coords, EltTy.bits .f32 = 32 ∨ (Rect.block (s := S512x512) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x512.size a ≤ S512x512.size a
  hwx1_3 : ∀ i : grid1.Coords, EltTy.bits .f32 = 32 ∨ (Rect.block (s := S512x512) S32x512.size (cc1_transform_3 i) (hinb1_3 i)).WholeWords (EltTy.packing .f32)

variable [Facts₀]

def dot_S512x2_S2x512_S512x512_1_0_0_1_n_n : DotDims S512x2 S2x512 S512x512 where
  lhsContracting := [1]
  rhsContracting := [0]
  lhsNonContracting := [0]
  rhsNonContracting := [1]
  lhsBatch := []
  rhsBatch := []
  wf := dot_S512x2_S2x512_S512x512_1_0_0_1_n_n_wf

abbrev win0_0 : Pipeline.Window sig grid0 :=
  Pipeline.Window.ofSpec (Memref.whole main_arg0) S512x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x2 : Shape := ⟨2, ![512, 2]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2x512 : Shape := ⟨2, ![2, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 46
  | .vmem => 0
  | .smem => 0
  | _ => 0

abbrev bufTy : (tb : Table) → Fin (tcTables nBuf tb) → BufTy
  | .hbm, ⟨0, _⟩ => ⟨S512x2, .f32⟩
  | .hbm, ⟨1, _⟩ => ⟨S1, .f32⟩
  | .hbm, ⟨2, _⟩ => ⟨S512x2, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S2x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .i1⟩
  | .hbm, ⟨19, _⟩ => ⟨S_, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512x1, .f32⟩
  | .hbm, ⟨29, _⟩ => ⟨S512x1x512, .f32⟩
  | .hbm, ⟨30, _⟩ => ⟨S512x512x512, .f32⟩
  | .hbm, ⟨31, _⟩ => ⟨S512x512x512, .f32⟩
  | .hbm, ⟨32, _⟩ => ⟨S512x512x512, .f32⟩
  | .hbm, ⟨33, _⟩ => ⟨S_, .f32⟩
  | .hbm, ⟨34, _⟩ => ⟨S512x512x512, .f32⟩
  | .hbm, ⟨35, _⟩ => ⟨S512x512x512, .f32⟩
  | .hbm, ⟨36, _⟩ => ⟨S512x512x512, .f32⟩
  | .hbm, ⟨37, _⟩ => ⟨S512x512x512, .f32⟩
  | .hbm, ⟨38, _⟩ => ⟨S_, .f32⟩
  | .hbm, ⟨39, _⟩ => ⟨S512x512x512, .f32⟩
  | .hbm, ⟨40, _⟩ => ⟨S512x512x512, .f32⟩
  | .hbm, ⟨41, _⟩ => ⟨S_, .f32⟩
  | .hbm, ⟨42, _⟩ => ⟨S512x512x512, .f32⟩
  | .hbm, ⟨43, _⟩ => ⟨S512x512x512, .f32⟩
  | .hbm, ⟨44, _⟩ => ⟨S_, .f32⟩
  | .hbm, ⟨45, _⟩ => ⟨S512x512, .f32⟩
  | _, _ => ⟨S512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S512x2_S512_d1 : S512x2.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x2_S2x512_1_0 : S512x2.Transposes [1, 0] S2x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  shapeCasts_S1_S_ : S1.ShapeCasts S_
  bcast_S_S512x512x512 : S_.BroadcastsInDim S512x512x512 (![] : Fin 0 → Fin S512x512x512.rank)
  reducesTo_S512x512x512_S512x512_d2 : S512x512x512.ReducesTo [2] S512x512
  dot_S512x2_S2x512_S512x512_1_0_0_1_n_n_wf : DotDims.WF S512x2 S2x512 S512x512 [1] [0] [0] [1] [] []

variable [Facts₀]

def dot_S512x2_S2x512_S512x512_1_0_0_1_n_n : DotDims S512x2 S2x512 S512x512 where
  lhsContracting := [1]
  rhsContracting := [0]
  lhsNonContracting := [0]
  rhsNonContracting := [1]
  lhsBatch := []
  rhsBatch := []
  wf := dot_S512x2_S2x512_S512x512_1_0_0_1_n_n_wf

class Facts : Prop extends Facts₀ where

variable [Facts]
-- ==== Proof.K.R0.lean ====
/-
  The distance kernel (the first of the program's two kernels), at the contents `V` its core's buffers hold when the
  region is entered. Its grid has one point; the body loads the whole [512, 2] block of the points' coordinates,
  computes the [512, 512] matrix of pairwise distances as one pure function of that block,
  and stores it over the whole output block. Stated here: what the output's staging buffer holds after the body, the
  body's triple, the pipeline's proof data and the body obligation at every grid point.
-/
import proofs.«116070_j82609400971282_1_alg».proof.Proof.Gen.Kernel.Launch
import proofs.«116070_j82609400971282_1_alg».proof.Proof.Gen.Kernel.Skeleton
import proofs.«116070_j82609400971282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as the body's rectangles. -/
abbrev rIn0 : Rect S512x2 := Rect.unit (s := S512x2) ![0, 0] S512x2.size inb_S512x2_S512x2_0_0
abbrev rOut0 : Rect S512x512 := Rect.unit (s := S512x512) ![0, 0] S512x512.size inb_S512x512_S512x512_0_0

/-- The output's staging buffer after the body: its one store, of the distance matrix of the loaded block. -/
def out0_1 (x0 : Vec F S512x2 .f32) : Vec F S512x512 .f32 :=
  View.canon [⟨rOut0, k0_pay1 (View.ld x0 rIn0)⟩]

/-- The one store covers the block. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging memrefs: the input's contents are kept, the output's buffer ends at `out0_1` of them. -/
theorem sound_kernel0 (c : Dev nD) (E : Set ℕ) (i : grid0.Coords) (arg1 : Memref sig .tc .vmem S512x2 .f32) (harg1 : arg1.IsWhole) (arg2 : Memref sig .tc .vmem S512x512 .f32) (harg2 : arg2.IsWhole)
    (x0 : Vec F S512x2 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the distance pipeline on core `c`: the arrays as the region finds them; after the body the
    input's buffer at its block and the output's at the distance matrix of the input block; the invariant the scoped
    rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the distance pipeline, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.R1Runs.lean ====
/-
  The rank kernel (soft ranks accumulated over tiles of the summation index), at the contents `V` its core's buffers
  hold when its region is entered: what its three control cases share. The grid is 16 row tiles by 4 tiles of the
  summation index k; a point is t = 4 * (row tile) + (k tile). The body zeroes a [32, 512] accumulator at k tile 0,
  adds this k tile's partial sums to it at every point, and copies it to the output block at k tile 3. Here: the
  windows' blocks, the two branch conditions in closed form over the grid, where the output window is idle, and the
  memrefs the body is called with.
-/
import proofs.«116070_j82609400971282_1_alg».proof.Proof.Gen.Kernel.Launch
import proofs.«116070_j82609400971282_1_alg».proof.Proof.Gen.Kernel.Skeleton
import proofs.«116070_j82609400971282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block whenever the body runs, fetched at that point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-- "This is k tile 0": the condition under which the body zeroes the accumulator. -/
abbrev cond1_0 (i : grid1.Coords) : Prop := (Scalar.cmpi .ne (Scalar.extui (Scalar.cmpi .eq (BitVec.ofNat 32 (i 1).val) 0#32)) 0#32) = 1#1
/-- It holds at the points t ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is k tile 3": the condition under which the body copies the accumulator to the output block. -/
abbrev cond1_1 (i : grid1.Coords) : Prop := k1_cond2 i = 1#1
/-- It holds at the points t ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k tile 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k tile 3 it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S32x512 .f32 := (Memref.whole cc1_stg3_0 : Memref sig .tc .vmem S32x512 .f32).view
/-- Each window's current staging memref at point `t`, as the body is called with it, and its wholeness. -/
abbrev ms1_0 (t : Fin cfg1.N) : Memref sig .tc .vmem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x512 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S32x512 .f32 := Memref.whole cc1_scratch0
abbrev VS1_0 : View sig .tc .vmem S32x512 .f32 := scM1_0.view

/-- The scoped buffers of the core that this region's pipeline does not stage and the body never touches: the first
    region's two staging buffers, each at some contents. -/
abbrev otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's plain invariant, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.R1RunA.lean ====
/-
  The rank kernel's body at a point of k tile 0 (the accumulator is zeroed, then this tile's partial sums are added;
  nothing is stored to the output block): its triple on whole staging memrefs, the stores it makes into the accumulator
  found as a list of pieces.
-/
import proofs.«116070_j82609400971282_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k tile 0: the inputs' buffers and the (idle) output buffer are handed back as found, the accumulator — whatever
    it held — ends with the listed pieces written. -/
noncomputable def kernelRun1_A (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) :
    Σ' (L3 : List (View.Piece (Elt F) S32x512 .f32)), { LS0 : List (View.Piece (Elt F) S32x512 .f32) //
      ∀ (xi3 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__rank_kernel i arg2 harg2 arg3 harg3 arg4 harg4 arg5 harg5 arg6 harg6) K } := by
  refine ⟨[], ?_, fun xi3 E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunB.lean ====
/-
  The rank kernel's body at a point of k tile 1 or 2 (this tile's partial sums are added to the accumulator the
  point before left; nothing is stored to the output block): its triple on whole staging memrefs.
-/
import proofs.«116070_j82609400971282_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k tiles 1 and 2: the inputs' buffers and the (idle) output buffer are handed back as found, the accumulator,
    found at `xs0`, ends with the listed pieces written. -/
noncomputable def kernelRun1_B (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) :
    Σ' (L3 : List (View.Piece (Elt F) S32x512 .f32)), { LS0 : List (View.Piece (Elt F) S32x512 .f32) //
      ∀ (xi3 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__rank_kernel i arg2 harg2 arg3 harg3 arg4 harg4 arg5 harg5 arg6 harg6) K } := by
  refine ⟨[], ?_, fun xi3 E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunC.lean ====
/-
  The rank kernel's body at a point of k tile 3 (this tile's partial sums are added to the accumulator the point
  before left, and the accumulator is copied over the whole output block): its triple on whole staging memrefs.
-/
import proofs.«116070_j82609400971282_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k tile 3: the inputs' buffers are handed back as found; the output buffer, whatever it held, and the
    accumulator, found at `xs0`, end with the listed pieces written. -/
noncomputable def kernelRun1_C (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) :
    Σ' (L3 : List (View.Piece (Elt F) S32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__rank_kernel i arg2 harg2 arg3 harg3 arg4 harg4 arg5 harg5 arg6 harg6) K } := by
  refine ⟨?_, ?_, fun E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1.lean ====
/-
  The rank kernel's region: what the accumulator and the output block hold after each grid point (by recursion on the
  point: zeroed and restarted at every k tile 0, continued from the point before otherwise), the pipeline's proof data
  (the invariant carries the accumulator at the contents the point before left), and the body obligation at every
  point, by cases on the k tile.
-/
import proofs.«116070_j82609400971282_1_alg».proof.Proof.K.R1RunA
import proofs.«116070_j82609400971282_1_alg».proof.Proof.K.R1RunB
import proofs.«116070_j82609400971282_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What case A leaves in the output's staging buffer, read back over junk (a placeholder: the window is idle there). -/
def out1_A_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) : Vec F S32x512 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) (y : S32x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S32x512.size (by sl_kernel_rfl) y

/-- What case A leaves in the accumulator: its stores read back. -/
def sout1_A_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) : Vec F S32x512 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output's staging buffer, read back over junk (a placeholder: the window is idle there). -/
def out1_B_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) : Vec F S32x512 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) (y : S32x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S32x512.size (by sl_kernel_rfl) y

/-- What case B leaves in the accumulator: its stores read back. -/
def sout1_B_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) : Vec F S32x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output's staging buffer, read back over junk. -/
def out1_C_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) : Vec F S32x512 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it. -/
theorem scover1_C_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) (y : S32x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S32x512.size (by sl_kernel_rfl) y

/-- What case C leaves in the accumulator: its stores read back. -/
def sout1_C_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) : Vec F S32x512 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- At k tile 3 the copy of the accumulator covers the output block. -/
theorem cover1_C_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) (y : S32x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S32x512.size (by sl_kernel_rfl) y

/-- THE ACCUMULATION: what the output's staging buffer and the accumulator hold after the body at position `n`. -/
def outsAt1 (c : Dev nD) : (n : ℕ) → n < cfg1.N → Vec F S32x512 .f32 × Vec F S32x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    accumulator at what the point before left in it, the other scoped buffers at anything, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c (n - 1) (by omega)).2)) ∗ (∃ r, prngReg c r)) := by
  cases n with
  | zero => exact absurd rfl hz
  | succ n => rfl

/-- The proof data of the rank pipeline on core `c`: the arrays as the region finds them; after the body each input's
    buffer at its block and the output's at `outsAt1`; the invariant `PhiS1`; each input array held at the share `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q
  owed _ := 0

variable (q : Fin cfg1.W → PosShare TreeShare)

theorem A_eq1 (c : Dev nD) (w : Fin cfg1.W) : (dat1 V q c).A w = V c (Pipeline.arrRef spec1 w) := by
  dsimp only [dat1]

theorem PhiS1_castSucc (c : Dev nD) (t : Fin cfg1.N) :
    (dat1 V q c).Φ t.castSucc = PhiS1 V c t.val (Nat.le_of_lt t.isLt) := by
  dsimp only [dat1]; simp only [Fin.coe_castSucc]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = (outsAt1 V c t.val t.isLt).1 := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d)))

/-- and what it returns. -/
def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t)

set_option maxHeartbeats 4800000 in
/-- The body at any point, by cases on the k tile: the inputs' memrefs hold their blocks; the invariant hands the body
    the accumulator at what the point before left (at anything at the first point) and takes it back at this point's
    contents; away from k tile 3 the output's buffer is handed back untouched. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [Dat.leavesExact_idle (dat1 V q c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V q c t, PhiS1_zero V c _ _ hz, PhiA1_eq]
        iintro ⟨⟨⟨HA, HB, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS1_castSucc V q c t, PhiS1_pos V c _ _ hz]
        iintro ⟨⟨⟨HA, HB, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · by_cases h1 : t.val % 4 = 3
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V q c t, PhiS1_pos V c _ _ hz]
        iintro ⟨⟨⟨HA, HB, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_C_0 c _ _ _ _ _ _ _ _ _ _ _ _ _ _ _ _ _ )
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ )
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [Dat.leavesExact_idle (dat1 V q c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V q c t, PhiS1_pos V c _ _ hz]
        iintro ⟨⟨⟨HA, HB, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_B_0 c _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3

/-- The body obligation of the rank pipeline, at every point. -/
theorem body_obligation1 (c : Dev nD) : BodyObligation (dat1 (F := F) V q c) (defs₀ (F := F)) Variants.none () Set.univ := fun t => by
  rw [bigSep_W1, bigSep_W1]
  exact sound_body1 V q c t

/-- What the region is entered with is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HA, HB, HS0⟩, Hg⟩
  isplitl [HA HB HS0]
  · isplitl [HA]; · iexact HA
    isplitl [HB]; · iexact HB
    iexists _; iexact HS0
  iexact Hg

end Region

end Cert.Kernel.Hand

end
-- ==== Proof.K.Run.lean ====
/-
  The whole program, from launch to return: the distance region, then the rank region, each entered from what the one
  before left. The contents of a core's unscoped buffers at the three boundaries are named (`W0`: as launched; `W1`:
  the distance matrix written; `W2`: the soft ranks written). The rank region reads the distance matrix through two
  windows at once, so it holds that array as two half shares, split at its entry and rejoined at its exit. The
  conclusion: every weakly fair execution terminates without fault, and every final state holds `W2`.
-/
import proofs.«116070_j82609400971282_1_alg».proof.Proof.K.R0
import proofs.«116070_j82609400971282_1_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the TensorCore's references: what the distance region is entered with. -/
abbrev Vr0 : (c : Dev nD) → (b : Ref sig .tc) → Buf (Elt F) ((c : Thread nD τ).loc b) := fun c b => W0 m c b
/-- After the distance region: its output array holds the distance matrix, every other buffer is as launched. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the rank region is entered with. -/
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- How the rank region holds its arrays: the distance matrix, read through two windows, half to each; the scale and
    the output array whole. -/
def q1 : Fin cfg1.W → PosShare TreeShare
  | ⟨0, _⟩ => fullShare
  | ⟨1, _⟩ => fullShare.left
  | ⟨2, _⟩ => fullShare.right
  | ⟨3, _⟩ => fullShare

/-- After the rank region: its output array holds what the write-backs left, every other buffer is as before. -/
def W2 (c : Dev nD) : Valuation τ sig (Elt F) :=
  Function.update (W1 m c) (Proc.devRef .tc main_v1) ((dat1 (Vr1 m) q1 c).arrAt 3 cfg1.N)
abbrev Vr2 : (c : Dev nD) → (b : Ref sig .tc) → Buf (Elt F) ((c : Thread nD τ).loc b) := fun c b => W2 m c b
theorem W2_out (c : Dev nD) : Vr2 m c main_v1 = (dat1 (Vr1 m) q1 c).arrAt 3 cfg1.N := by
  show W2 m c (Proc.devRef .tc main_v1) = _
  unfold W2; exact Function.update_self _ _ _
theorem W2_of_ne (c : Dev nD) (b : Ref sig .tc) (hb : b ≠ main_v1) : Vr2 m c b = Vr1 m c b := by
  show W2 m c (Proc.devRef .tc b) = W1 m c (Proc.devRef .tc b)
  unfold W2; exact Function.update_of_ne (StableHlo.devRef_ne_of_ne hb) _ _

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (Vr0 m) c
  | ⟨1, _⟩ => fun c => dat1 (Vr1 m) q1 c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The distance region as a segment -/

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The rank region's arrays: one array behind two windows -/

section Shared
variable (V : (c : Dev nD) → (b : Ref sig .tc) → Buf (Elt F) ((c : Thread nD τ).loc b))

/-- The three distinct buffers behind the rank region's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v0) ↦{fullShare} V main_v0) ∗ (((c : Thread nD τ).loc main_v1) ↦{fullShare} V main_v1)) := by
  unfold Pipeline.arrBufs
  exact bigSep_eq_bigSepL_of_eq [main_arg1, main_v0, main_v1] (by decide) (by decide) _

/-- The rank region's arrays window by window: the scale whole, the distance matrix half to its row window and half
    to its column window, the output whole. -/
theorem arrays1_eq (c : Dev nD) (G : (w : Fin cfg1.W) → Buf (Elt F) ((cfg1.win w).arr.view.loc (c : Thread nD τ))) :
    ((dat1 V q1 c).arrays G : sProp 𝕄)
      = iprop((((c : Thread nD τ).loc main_arg1) ↦{fullShare} G 0) ∗ (((c : Thread nD τ).loc main_v0) ↦{fullShare.left} G 1)
          ∗ (((c : Thread nD τ).loc main_v0) ↦{fullShare.right} G 2) ∗ (((c : Thread nD τ).loc main_v1) ↦{fullShare} G 3)) := by
  unfold Dat.arrays
  rw [bigSep_W1, (arr_whole1 0).set_eq_univ, (arr_whole1 1).set_eq_univ, (arr_whole1 3).set_eq_univ]
  rfl

/-- ENTRY: the core's unscoped buffers are the rank region's arrays at their entry contents, and the rest. -/
theorem entry1 (c : Dev nD) :
    (unscopedBufs c (V c) : sProp 𝕄) ⊢ iprop((dat1 V q1 c).arrays ((dat1 V q1 c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq]
  iintro ⟨⟨Ha, Hd, Ho⟩, Hrest⟩
  ihave Hs := (pointsTo_share (PosShare.mem_left_op_right fullShare)).1 $$ Hd
  icases Hs with ⟨Hl, Hr⟩
  isplitr [Hrest]
  · isplitl [Ha]; · iexact Ha
    isplitl [Hl]; · iexact Hl
    isplitl [Hr]; · iexact Hr
    iexact Ho
  iexact Hrest

end Shared

/-- EXIT: the rank region's arrays at their final contents and the rest are the core's unscoped buffers at the
    contents after the region. -/
theorem exit1 (c : Dev nD) :
    iprop((dat1 (Vr1 m) q1 c).arrays ((dat1 (Vr1 m) q1 c).arrAt · cfg1.N) ∗ Pipeline.unscopedRest (Ix := Unit) (Name := ℕ) (U := UR sig nD τ) (Lvl := ℕ) spec1 c (Vr1 m c))
      ⊢ (unscopedBufs c (Vr2 m c) : sProp 𝕄) := by
  rw [Pipeline.unscopedBufs_split₀ cfgs 1 winFacts₀1.arr_unscoped c (Vr2 m c)]
  show _ ⊢ iprop(Pipeline.arrBufs spec1 c (Vr2 m c) ∗ Pipeline.unscopedRest spec1 c (Vr2 m c))
  rw [arrBufs1_eq, arrays1_eq, unscopedRest1_eq, unscopedRest1_eq]
  have e0 := (dat1 (Vr1 m) q1 c).arrAt_in 0 rfl cfg1.N
  have e1 := (dat1 (Vr1 m) q1 c).arrAt_in 1 rfl cfg1.N
  have e2 := (dat1 (Vr1 m) q1 c).arrAt_in 2 rfl cfg1.N
  rw [e0, e1, e2, W2_out, W2_of_ne m c main_arg1 (by decide), W2_of_ne m c main_v0 (by decide), W2_of_ne m c main_arg0 (by decide)]
  iintro ⟨⟨Ha, Hl, Hr, Ho⟩, Hrest⟩
  isplitr [Hrest]
  · isplitl [Ha]; · iexact Ha
    isplitl [Hl Hr]
    · iapply (pointsTo_share (PosShare.mem_left_op_right fullShare)).2
      isplitl [Hl]; · iexact Hl
      iexact Hr
    iexact Ho
  iexact Hrest

/-! ## The rank region as a segment -/

set_option backward.isDefEq.respectTransparency.types false in
def reg1 : Pipeline.RegionSeg (pcfgs (F := F)) admH (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) q1 c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit : (unscopedBufs c (Vr1 m c) : sProp 𝕄) ⊢ iprop((pdats m 1 c).arrays ((pdats m 1 c).arrAt · 0)
        ∗ Pipeline.unscopedRest (Ix := Unit) (Name := ℕ) (U := UR sig nD τ) (Lvl := ℕ) spec1 c (Vr1 m c)) := entry1 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) q1 c)
    unfold Pipeline.ΦA
    iintro ⟨Hp, -, Hr⟩
    isplitl [Hr]; · iexact Hr
    iexact Hp
  hout c := by
    rw [Pipeline.ownSems0_none]
    refine (hout1 (Vr1 m) q1 c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr1 m c))
        ⊢ (unscopedBufs c (Vr2 m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch: both regions in order -/

abbrev segs : List (Pipeline.Seg (pcfgs (F := F)) admH (pdats m) () defs₀ 𝒱₀ L lv) :=
  [ .region (reg0 m), .region (reg1 m) ]

set_option backward.isDefEq.respectTransparency.types false in
/-- From any memory with zero counters every weakly fair execution of the program terminates, nothing faulting, and in
    every final state each unscoped buffer of each core holds the contents `W2` names: the arguments as launched, the
    distance matrix, and the soft ranks as the rank region's write-backs left them. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_segs admH (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-! ## The arguments end as launched -/

theorem W2_main_arg0 (c : Dev nD) : W2 m c (Proc.devRef .tc main_arg0) = m ((c : Thread nD τ).loc main_arg0) :=
  (W2_of_ne m c main_arg0 (by decide)).trans <| (W1_arr m c 0).trans <| ((dat0 (Vr0 m) c).arrAt_in 0 rfl _).trans (A_eq0 (Vr0 m) c 0)
theorem W2_main_arg1 (c : Dev nD) : W2 m c (Proc.devRef .tc main_arg1) = m ((c : Thread nD τ).loc main_arg1) :=
  (W2_of_ne m c main_arg1 (by decide)).trans (W1_of_ne m c main_arg1 (by decide))

/-- Every weakly fair execution terminates without fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W2_main_arg0 m c),
    (h c _ (mem_uc main_arg1 (by decide))).trans (W2_main_arg1 m c)⟩) (run_main m ρ)

end Cert.Kernel.Hand

end
-- ==== Proof.KI.R0.lean ====
/-
  The distance kernel (the first of the program's two kernels), at the contents `V` its core's buffers hold when the
  region is entered. Its grid has one point; the body loads the whole [512, 2] block of the points' coordinates,
  computes the [512, 512] matrix of pairwise distances as one pure function of that block,
  and stores it over the whole output block. Stated here: what the output's staging buffer holds after the body, the
  body's triple, the pipeline's proof data and the body obligation at every grid point.
-/
import proofs.«116070_j82609400971282_1_alg».proof.Proof.Gen.KernelIdeal.Launch
import proofs.«116070_j82609400971282_1_alg».proof.Proof.Gen.KernelIdeal.Skeleton
import proofs.«116070_j82609400971282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as the body's rectangles. -/
abbrev rIn0 : Rect S512x2 := Rect.unit (s := S512x2) ![0, 0] S512x2.size inb_S512x2_S512x2_0_0
abbrev rOut0 : Rect S512x512 := Rect.unit (s := S512x512) ![0, 0] S512x512.size inb_S512x512_S512x512_0_0

/-- The output's staging buffer after the body: its one store, of the distance matrix of the loaded block. -/
def out0_1 (x0 : Vec F S512x2 .f32) : Vec F S512x512 .f32 :=
  View.canon [⟨rOut0, k0_pay1 (View.ld x0 rIn0)⟩]

/-- The one store covers the block. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging memrefs: the input's contents are kept, the output's buffer ends at `out0_1` of them. -/
theorem sound_kernel0 (c : Dev nD) (E : Set ℕ) (i : grid0.Coords) (arg1 : Memref sig .tc .vmem S512x2 .f32) (harg1 : arg1.IsWhole) (arg2 : Memref sig .tc .vmem S512x512 .f32) (harg2 : arg2.IsWhole)
    (x0 : Vec F S512x2 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the distance pipeline on core `c`: the arrays as the region finds them; after the body the
    input's buffer at its block and the output's at the distance matrix of the input block; the invariant the scoped
    rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the distance pipeline, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.R1Runs.lean ====
/-
  The rank kernel (soft ranks accumulated over tiles of the summation index), at the contents `V` its core's buffers
  hold when its region is entered: what its three control cases share. The grid is 16 row tiles by 4 tiles of the
  summation index k; a point is t = 4 * (row tile) + (k tile). The body zeroes a [32, 512] accumulator at k tile 0,
  adds this k tile's partial sums to it at every point, and copies it to the output block at k tile 3. Here: the
  windows' blocks, the two branch conditions in closed form over the grid, where the output window is idle, and the
  memrefs the body is called with.
-/
import proofs.«116070_j82609400971282_1_alg».proof.Proof.Gen.KernelIdeal.Launch
import proofs.«116070_j82609400971282_1_alg».proof.Proof.Gen.KernelIdeal.Skeleton
import proofs.«116070_j82609400971282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block whenever the body runs, fetched at that point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-- "This is k tile 0": the condition under which the body zeroes the accumulator. -/
abbrev cond1_0 (i : grid1.Coords) : Prop := (Scalar.cmpi .ne (Scalar.extui (Scalar.cmpi .eq (BitVec.ofNat 32 (i 1).val) 0#32)) 0#32) = 1#1
/-- It holds at the points t ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is k tile 3": the condition under which the body copies the accumulator to the output block. -/
abbrev cond1_1 (i : grid1.Coords) : Prop := k1_cond2 i = 1#1
/-- It holds at the points t ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k tile 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k tile 3 it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S32x512 .f32 := (Memref.whole cc1_stg3_0 : Memref sig .tc .vmem S32x512 .f32).view
/-- Each window's current staging memref at point `t`, as the body is called with it, and its wholeness. -/
abbrev ms1_0 (t : Fin cfg1.N) : Memref sig .tc .vmem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x512 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S32x512 .f32 := Memref.whole cc1_scratch0
abbrev VS1_0 : View sig .tc .vmem S32x512 .f32 := scM1_0.view

/-- The scoped buffers of the core that this region's pipeline does not stage and the body never touches: the first
    region's two staging buffers, each at some contents. -/
abbrev otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's plain invariant, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
/-
  The rank kernel's body at a point of k tile 0 (the accumulator is zeroed, then this tile's partial sums are added;
  nothing is stored to the output block): its triple on whole staging memrefs, the stores it makes into the accumulator
  found as a list of pieces.
-/
import proofs.«116070_j82609400971282_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k tile 0: the inputs' buffers and the (idle) output buffer are handed back as found, the accumulator — whatever
    it held — ends with the listed pieces written. -/
noncomputable def kernelRun1_A (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) :
    Σ' (L3 : List (View.Piece (Elt F) S32x512 .f32)), { LS0 : List (View.Piece (Elt F) S32x512 .f32) //
      ∀ (xi3 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__rank_kernel i arg2 harg2 arg3 harg3 arg4 harg4 arg5 harg5 arg6 harg6) K } := by
  refine ⟨[], ?_, fun xi3 E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunB.lean ====
/-
  The rank kernel's body at a point of k tile 1 or 2 (this tile's partial sums are added to the accumulator the
  point before left; nothing is stored to the output block): its triple on whole staging memrefs.
-/
import proofs.«116070_j82609400971282_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k tiles 1 and 2: the inputs' buffers and the (idle) output buffer are handed back as found, the accumulator,
    found at `xs0`, ends with the listed pieces written. -/
noncomputable def kernelRun1_B (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) :
    Σ' (L3 : List (View.Piece (Elt F) S32x512 .f32)), { LS0 : List (View.Piece (Elt F) S32x512 .f32) //
      ∀ (xi3 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__rank_kernel i arg2 harg2 arg3 harg3 arg4 harg4 arg5 harg5 arg6 harg6) K } := by
  refine ⟨[], ?_, fun xi3 E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunC.lean ====
/-
  The rank kernel's body at a point of k tile 3 (this tile's partial sums are added to the accumulator the point
  before left, and the accumulator is copied over the whole output block): its triple on whole staging memrefs.
-/
import proofs.«116070_j82609400971282_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k tile 3: the inputs' buffers are handed back as found; the output buffer, whatever it held, and the
    accumulator, found at `xs0`, end with the listed pieces written. -/
noncomputable def kernelRun1_C (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) :
    Σ' (L3 : List (View.Piece (Elt F) S32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__rank_kernel i arg2 harg2 arg3 harg3 arg4 harg4 arg5 harg5 arg6 harg6) K } := by
  refine ⟨?_, ?_, fun E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1.lean ====
/-
  The rank kernel's region: what the accumulator and the output block hold after each grid point (by recursion on the
  point: zeroed and restarted at every k tile 0, continued from the point before otherwise), the pipeline's proof data
  (the invariant carries the accumulator at the contents the point before left), and the body obligation at every
  point, by cases on the k tile.
-/
import proofs.«116070_j82609400971282_1_alg».proof.Proof.KI.R1RunA
import proofs.«116070_j82609400971282_1_alg».proof.Proof.KI.R1RunB
import proofs.«116070_j82609400971282_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What case A leaves in the output's staging buffer, read back over junk (a placeholder: the window is idle there). -/
def out1_A_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) : Vec F S32x512 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) (y : S32x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S32x512.size (by sl_kernel_rfl) y

/-- What case A leaves in the accumulator: its stores read back. -/
def sout1_A_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) : Vec F S32x512 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output's staging buffer, read back over junk (a placeholder: the window is idle there). -/
def out1_B_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) : Vec F S32x512 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) (y : S32x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S32x512.size (by sl_kernel_rfl) y

/-- What case B leaves in the accumulator: its stores read back. -/
def sout1_B_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) : Vec F S32x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output's staging buffer, read back over junk. -/
def out1_C_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) : Vec F S32x512 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it. -/
theorem scover1_C_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) (y : S32x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S32x512.size (by sl_kernel_rfl) y

/-- What case C leaves in the accumulator: its stores read back. -/
def sout1_C_0 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) : Vec F S32x512 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- At k tile 3 the copy of the accumulator covers the output block. -/
theorem cover1_C_3 (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) (y : S32x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S32x512.size (by sl_kernel_rfl) y

/-- THE ACCUMULATION: what the output's staging buffer and the accumulator hold after the body at position `n`. -/
def outsAt1 (c : Dev nD) : (n : ℕ) → n < cfg1.N → Vec F S32x512 .f32 × Vec F S32x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    accumulator at what the point before left in it, the other scoped buffers at anything, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c (n - 1) (by omega)).2)) ∗ (∃ r, prngReg c r)) := by
  cases n with
  | zero => exact absurd rfl hz
  | succ n => rfl

/-- The proof data of the rank pipeline on core `c`: the arrays as the region finds them; after the body each input's
    buffer at its block and the output's at `outsAt1`; the invariant `PhiS1`; each input array held at the share `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q
  owed _ := 0

variable (q : Fin cfg1.W → PosShare TreeShare)

theorem A_eq1 (c : Dev nD) (w : Fin cfg1.W) : (dat1 V q c).A w = V c (Pipeline.arrRef spec1 w) := by
  dsimp only [dat1]

theorem PhiS1_castSucc (c : Dev nD) (t : Fin cfg1.N) :
    (dat1 V q c).Φ t.castSucc = PhiS1 V c t.val (Nat.le_of_lt t.isLt) := by
  dsimp only [dat1]; simp only [Fin.coe_castSucc]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = (outsAt1 V c t.val t.isLt).1 := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d)))

/-- and what it returns. -/
def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t)

set_option maxHeartbeats 4800000 in
/-- The body at any point, by cases on the k tile: the inputs' memrefs hold their blocks; the invariant hands the body
    the accumulator at what the point before left (at anything at the first point) and takes it back at this point's
    contents; away from k tile 3 the output's buffer is handed back untouched. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [Dat.leavesExact_idle (dat1 V q c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V q c t, PhiS1_zero V c _ _ hz, PhiA1_eq]
        iintro ⟨⟨⟨HA, HB, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS1_castSucc V q c t, PhiS1_pos V c _ _ hz]
        iintro ⟨⟨⟨HA, HB, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · by_cases h1 : t.val % 4 = 3
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V q c t, PhiS1_pos V c _ _ hz]
        iintro ⟨⟨⟨HA, HB, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_C_0 c _ _ _ _ _ _ _ _ _ _ _ _ _ _ _ _ _ )
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ )
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [Dat.leavesExact_idle (dat1 V q c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V q c t, PhiS1_pos V c _ _ hz]
        iintro ⟨⟨⟨HA, HB, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HS0 Hg]
        · isplitl [HA HB HS0]
          · isplitl [HA]; · iexact HA
            isplitl [HB]; · iexact HB
            unfold owns; iexists _; isplitr
            swap; · iexact HS0
            ipureintro; exact View.read_writes_of_cover _ _ _ _ _ (scover1_B_0 c _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3

/-- The body obligation of the rank pipeline, at every point. -/
theorem body_obligation1 (c : Dev nD) : BodyObligation (dat1 (F := F) V q c) (defs₀ (F := F)) Variants.none () Set.univ := fun t => by
  rw [bigSep_W1, bigSep_W1]
  exact sound_body1 V q c t

/-- What the region is entered with is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HA, HB, HS0⟩, Hg⟩
  isplitl [HA HB HS0]
  · isplitl [HA]; · iexact HA
    isplitl [HB]; · iexact HB
    iexists _; iexact HS0
  iexact Hg

end Region

end Cert.KernelIdeal.Hand

end
-- ==== Proof.KI.Run.lean ====
/-
  The whole program, from launch to return: the distance region, then the rank region, each entered from what the one
  before left. The contents of a core's unscoped buffers at the three boundaries are named (`W0`: as launched; `W1`:
  the distance matrix written; `W2`: the soft ranks written). The rank region reads the distance matrix through two
  windows at once, so it holds that array as two half shares, split at its entry and rejoined at its exit. The
  conclusion: every weakly fair execution terminates without fault, and every final state holds `W2`.
-/
import proofs.«116070_j82609400971282_1_alg».proof.Proof.KI.R0
import proofs.«116070_j82609400971282_1_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the TensorCore's references: what the distance region is entered with. -/
abbrev Vr0 : (c : Dev nD) → (b : Ref sig .tc) → Buf (Elt F) ((c : Thread nD τ).loc b) := fun c b => W0 m c b
/-- After the distance region: its output array holds the distance matrix, every other buffer is as launched. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the rank region is entered with. -/
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- How the rank region holds its arrays: the distance matrix, read through two windows, half to each; the scale and
    the output array whole. -/
def q1 : Fin cfg1.W → PosShare TreeShare
  | ⟨0, _⟩ => fullShare
  | ⟨1, _⟩ => fullShare.left
  | ⟨2, _⟩ => fullShare.right
  | ⟨3, _⟩ => fullShare

/-- After the rank region: its output array holds what the write-backs left, every other buffer is as before. -/
def W2 (c : Dev nD) : Valuation τ sig (Elt F) :=
  Function.update (W1 m c) (Proc.devRef .tc main_v1) ((dat1 (Vr1 m) q1 c).arrAt 3 cfg1.N)
abbrev Vr2 : (c : Dev nD) → (b : Ref sig .tc) → Buf (Elt F) ((c : Thread nD τ).loc b) := fun c b => W2 m c b
theorem W2_out (c : Dev nD) : Vr2 m c main_v1 = (dat1 (Vr1 m) q1 c).arrAt 3 cfg1.N := by
  show W2 m c (Proc.devRef .tc main_v1) = _
  unfold W2; exact Function.update_self _ _ _
theorem W2_of_ne (c : Dev nD) (b : Ref sig .tc) (hb : b ≠ main_v1) : Vr2 m c b = Vr1 m c b := by
  show W2 m c (Proc.devRef .tc b) = W1 m c (Proc.devRef .tc b)
  unfold W2; exact Function.update_of_ne (StableHlo.devRef_ne_of_ne hb) _ _

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (Vr0 m) c
  | ⟨1, _⟩ => fun c => dat1 (Vr1 m) q1 c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The distance region as a segment -/

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The rank region's arrays: one array behind two windows -/

section Shared
variable (V : (c : Dev nD) → (b : Ref sig .tc) → Buf (Elt F) ((c : Thread nD τ).loc b))

/-- The three distinct buffers behind the rank region's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v0) ↦{fullShare} V main_v0) ∗ (((c : Thread nD τ).loc main_v1) ↦{fullShare} V main_v1)) := by
  unfold Pipeline.arrBufs
  exact bigSep_eq_bigSepL_of_eq [main_arg1, main_v0, main_v1] (by decide) (by decide) _

/-- The rank region's arrays window by window: the scale whole, the distance matrix half to its row window and half
    to its column window, the output whole. -/
theorem arrays1_eq (c : Dev nD) (G : (w : Fin cfg1.W) → Buf (Elt F) ((cfg1.win w).arr.view.loc (c : Thread nD τ))) :
    ((dat1 V q1 c).arrays G : sProp 𝕄)
      = iprop((((c : Thread nD τ).loc main_arg1) ↦{fullShare} G 0) ∗ (((c : Thread nD τ).loc main_v0) ↦{fullShare.left} G 1)
          ∗ (((c : Thread nD τ).loc main_v0) ↦{fullShare.right} G 2) ∗ (((c : Thread nD τ).loc main_v1) ↦{fullShare} G 3)) := by
  unfold Dat.arrays
  rw [bigSep_W1, (arr_whole1 0).set_eq_univ, (arr_whole1 1).set_eq_univ, (arr_whole1 3).set_eq_univ]
  rfl

/-- ENTRY: the core's unscoped buffers are the rank region's arrays at their entry contents, and the rest. -/
theorem entry1 (c : Dev nD) :
    (unscopedBufs c (V c) : sProp 𝕄) ⊢ iprop((dat1 V q1 c).arrays ((dat1 V q1 c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq]
  iintro ⟨⟨Ha, Hd, Ho⟩, Hrest⟩
  ihave Hs := (pointsTo_share (PosShare.mem_left_op_right fullShare)).1 $$ Hd
  icases Hs with ⟨Hl, Hr⟩
  isplitr [Hrest]
  · isplitl [Ha]; · iexact Ha
    isplitl [Hl]; · iexact Hl
    isplitl [Hr]; · iexact Hr
    iexact Ho
  iexact Hrest

end Shared

/-- EXIT: the rank region's arrays at their final contents and the rest are the core's unscoped buffers at the
    contents after the region. -/
theorem exit1 (c : Dev nD) :
    iprop((dat1 (Vr1 m) q1 c).arrays ((dat1 (Vr1 m) q1 c).arrAt · cfg1.N) ∗ Pipeline.unscopedRest (Ix := Unit) (Name := ℕ) (U := UR sig nD τ) (Lvl := ℕ) spec1 c (Vr1 m c))
      ⊢ (unscopedBufs c (Vr2 m c) : sProp 𝕄) := by
  rw [Pipeline.unscopedBufs_split₀ cfgs 1 winFacts₀1.arr_unscoped c (Vr2 m c)]
  show _ ⊢ iprop(Pipeline.arrBufs spec1 c (Vr2 m c) ∗ Pipeline.unscopedRest spec1 c (Vr2 m c))
  rw [arrBufs1_eq, arrays1_eq, unscopedRest1_eq, unscopedRest1_eq]
  have e0 := (dat1 (Vr1 m) q1 c).arrAt_in 0 rfl cfg1.N
  have e1 := (dat1 (Vr1 m) q1 c).arrAt_in 1 rfl cfg1.N
  have e2 := (dat1 (Vr1 m) q1 c).arrAt_in 2 rfl cfg1.N
  rw [e0, e1, e2, W2_out, W2_of_ne m c main_arg1 (by decide), W2_of_ne m c main_v0 (by decide), W2_of_ne m c main_arg0 (by decide)]
  iintro ⟨⟨Ha, Hl, Hr, Ho⟩, Hrest⟩
  isplitr [Hrest]
  · isplitl [Ha]; · iexact Ha
    isplitl [Hl Hr]
    · iapply (pointsTo_share (PosShare.mem_left_op_right fullShare)).2
      isplitl [Hl]; · iexact Hl
      iexact Hr
    iexact Ho
  iexact Hrest

/-! ## The rank region as a segment -/

set_option backward.isDefEq.respectTransparency.types false in
def reg1 : Pipeline.RegionSeg (pcfgs (F := F)) admH (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) q1 c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit : (unscopedBufs c (Vr1 m c) : sProp 𝕄) ⊢ iprop((pdats m 1 c).arrays ((pdats m 1 c).arrAt · 0)
        ∗ Pipeline.unscopedRest (Ix := Unit) (Name := ℕ) (U := UR sig nD τ) (Lvl := ℕ) spec1 c (Vr1 m c)) := entry1 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) q1 c)
    unfold Pipeline.ΦA
    iintro ⟨Hp, -, Hr⟩
    isplitl [Hr]; · iexact Hr
    iexact Hp
  hout c := by
    rw [Pipeline.ownSems0_none]
    refine (hout1 (Vr1 m) q1 c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr1 m c))
        ⊢ (unscopedBufs c (Vr2 m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch: both regions in order -/

abbrev segs : List (Pipeline.Seg (pcfgs (F := F)) admH (pdats m) () defs₀ 𝒱₀ L lv) :=
  [ .region (reg0 m), .region (reg1 m) ]

set_option backward.isDefEq.respectTransparency.types false in
/-- From any memory with zero counters every weakly fair execution of the program terminates, nothing faulting, and in
    every final state each unscoped buffer of each core holds the contents `W2` names: the arguments as launched, the
    distance matrix, and the soft ranks as the rank region's write-backs left them. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_segs admH (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-! ## The arguments end as launched -/

theorem W2_main_arg0 (c : Dev nD) : W2 m c (Proc.devRef .tc main_arg0) = m ((c : Thread nD τ).loc main_arg0) :=
  (W2_of_ne m c main_arg0 (by decide)).trans <| (W1_arr m c 0).trans <| ((dat0 (Vr0 m) c).arrAt_in 0 rfl _).trans (A_eq0 (Vr0 m) c 0)
theorem W2_main_arg1 (c : Dev nD) : W2 m c (Proc.devRef .tc main_arg1) = m ((c : Thread nD τ).loc main_arg1) :=
  (W2_of_ne m c main_arg1 (by decide)).trans (W1_of_ne m c main_arg1 (by decide))

/-- Every weakly fair execution terminates without fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W2_main_arg0 m c),
    (h c _ (mem_uc main_arg1 (by decide))).trans (W2_main_arg1 m c)⟩) (run_main m ρ)

end Cert.KernelIdeal.Hand

end
-- ==== Proof.SoftRankSpec.lean ====
/-
  The soft-rank specification, index by index, over extended-real-valued index functions.

  From a table Z of 512 points in the plane: the squared norm of point i, the inner product of
  points i and j, the squared distance (|z_i|² + |z_j|²) − 2·⟨z_i, z_j⟩, and the distance d(i,j),
  which is the square root where the squared distance is positive and 0 elsewhere (the inner
  select keeps the root's argument at 1 off that set). The soft rank of j in row i with sharpness α
  is ∑_k σ(α·(d(i,j) − d(i,k))), σ the logistic function. A tile is the same sum over one group of
  128 columns, and a sum over 512 columns is the left-nested sum, from zero, of its four groups
  of 128.
-/
import Idealize.ShloMosaic.PureOps.Ideal
import Idealize.ShloMosaic.PureOps.Ideal.Laws
import Idealize.ShloMosaic.Lib.ValueIdx

noncomputable section

open scoped BigOperators

namespace Cert.SoftRank

open Idealize.ShloMosaic Idealize.ShloMosaic.ValueIdx

/-- The squared norm of point i: the sum of the squares of its two coordinates. -/
def sqn (Z : (⟨2, ![512, 2]⟩ : Shape).Idx → EReal) (i : Fin 512) : EReal :=
  ∑ c : Fin 2, Z (ix2 i c) * Z (ix2 i c)

/-- The inner product of points i and j. -/
def dot (Z : (⟨2, ![512, 2]⟩ : Shape).Idx → EReal) (i j : Fin 512) : EReal :=
  ∑ c : Fin 2, Z (ix2 i c) * Z (ix2 j c)

/-- The squared distance, in the association both programs use: (|z_i|² + |z_j|²) − 2·⟨z_i, z_j⟩. -/
def sqdist (Z : (⟨2, ![512, 2]⟩ : Shape).Idx → EReal) (i j : Fin 512) : EReal :=
  (sqn Z i + sqn Z j) - Ideal.ofBits .f32 0x40000000#32 * dot Z i j

/-- The distance of points i and j: the root of the squared distance where that is positive, 0 elsewhere. -/
def distAt (Z : (⟨2, ![512, 2]⟩ : Shape).Idx → EReal) (i j : Fin 512) : EReal :=
  Scalar.select (Ideal.cmp .ogt (sqdist Z i j) (Ideal.ofBits .f32 0x00000000#32))
    (Ideal.sqrt (Scalar.select (Ideal.cmp .ogt (sqdist Z i j) (Ideal.ofBits .f32 0x00000000#32))
      (sqdist Z i j) (Ideal.ofBits .f32 0x3F800000#32)))
    (Ideal.ofBits .f32 0x00000000#32)

/-- The distance matrix. -/
def dist (Z : (⟨2, ![512, 2]⟩ : Shape).Idx → EReal) : (⟨2, ![512, 512]⟩ : Shape).Idx → EReal :=
  fun i => distAt Z (i 0) (i 1)

theorem dist_ix2 (Z : (⟨2, ![512, 2]⟩ : Shape).Idx → EReal) (i j : Fin 512) :
    dist Z (ix2 i j) = distAt Z i j := rfl

/-- The soft rank: entry (i, j) sums, over every column k of row i, the logistic of α·(d(i,j) − d(i,k)). -/
def rank (alpha : (⟨1, ![1]⟩ : Shape).Idx → EReal) (d : (⟨2, ![512, 512]⟩ : Shape).Idx → EReal) :
    (⟨2, ![512, 512]⟩ : Shape).Idx → EReal :=
  fun i => ∑ k : Fin 512, Ideal.logistic (alpha (ix1 (0 : Fin 1)) * (d i - d (ix2 (i 0 : Fin 512) k)))

theorem rank_ix2 (alpha : (⟨1, ![1]⟩ : Shape).Idx → EReal) (d : (⟨2, ![512, 512]⟩ : Shape).Idx → EReal)
    (i j : Fin 512) :
    rank alpha d (ix2 i j)
      = ∑ k : Fin 512, Ideal.logistic (alpha (ix1 (0 : Fin 1)) * (d (ix2 i j) - d (ix2 i k))) := rfl

/-- One tile of the soft rank: 32 rows, all 512 entries of each, against one group of 128 columns of the same rows. -/
def tile (alpha : (⟨1, ![1]⟩ : Shape).Idx → EReal) (row : (⟨2, ![32, 512]⟩ : Shape).Idx → EReal)
    (col : (⟨2, ![32, 128]⟩ : Shape).Idx → EReal) : (⟨2, ![32, 512]⟩ : Shape).Idx → EReal :=
  fun y => ∑ k : Fin 128, Ideal.logistic (alpha (ix1 (0 : Fin 1)) * (row y - col (ix2 (y 0 : Fin 32) k)))

theorem tile_ix2 (alpha : (⟨1, ![1]⟩ : Shape).Idx → EReal) (row : (⟨2, ![32, 512]⟩ : Shape).Idx → EReal)
    (col : (⟨2, ![32, 128]⟩ : Shape).Idx → EReal) (r : Fin 32) (j : Fin 512) :
    tile alpha row col (ix2 r j)
      = ∑ k : Fin 128, Ideal.logistic (alpha (ix1 (0 : Fin 1)) * (row (ix2 r j) - col (ix2 r k))) := rfl

/-- A sum over a + b terms is the sum of the first a plus the sum of the last b, with the positions written out. -/
theorem sum_split (a b : Nat) (f : Fin (a + b) → EReal) :
    ∑ k, f k = (∑ k : Fin a, f ⟨k.val, by omega⟩) + ∑ k : Fin b, f ⟨a + k.val, by omega⟩ := by
  rw [Fin.sum_univ_add]
  rfl

/-- A sum over 512 columns is the left-nested sum, starting from zero, of its four groups of 128 columns. -/
theorem sum_split4 (f : Fin 512 → EReal) :
    ∑ k, f k = (((0 + ∑ k : Fin 128, f ⟨k.val, by omega⟩) + ∑ k : Fin 128, f ⟨128 + k.val, by omega⟩)
      + ∑ k : Fin 128, f ⟨256 + k.val, by omega⟩) + ∑ k : Fin 128, f ⟨384 + k.val, by omega⟩ := by
  rw [zero_add, sum_split 384 128 f, sum_split 256 128 (fun k => f ⟨k.val, by omega⟩),
    sum_split 128 128 (fun k => f ⟨k.val, by omega⟩)]

end Cert.SoftRank

end
-- ==== Proof.SoftRankDist.lean ====
/-
  The distance kernel's stored value, index by index: it is the distance matrix of the specification.

  The squared norms are a sum over the two coordinates of each point; the product of the table with
  its transpose into a zero accumulator is, at (p, q), the inner product of points p and q; the
  squared norms enter once down the rows (a [512] vector viewed [512, 1] and repeated along the
  columns) and once along the columns (viewed [1, 512] and repeated down the rows); the rest is
  pointwise: the squared distance, its sign test, the guarded root.
-/
import proofs.«116070_j82609400971282_1_alg».proof.Proof.Gen.KernelIdeal.Skeleton
import proofs.«116070_j82609400971282_1_alg».proof.Proof.SoftRankSpec
import Idealize.ShloMosaic.Lib.ValueLayout
import Idealize.ShloMosaic.PureOps.Ideal.Laws

noncomputable section

open scoped BigOperators

namespace Cert.SoftRank

open Idealize.ShloMosaic Idealize.ShloMosaic.ValueIdx

variable {α : Type}

/-- A [512] vector viewed as a column [512, 1] and repeated along 512 columns reads, at (p, q), the vector at p. -/
theorem colOf_apply (x : (⟨1, ![512]⟩ : Shape).Idx → α)
    (h1 : (⟨1, ![512]⟩ : Shape).ShapeCasts ⟨2, ![512, 1]⟩)
    (h2 : (⟨2, ![512, 1]⟩ : Shape).Broadcasts ⟨2, ![512, 512]⟩) (p q : Fin 512) :
    broadcastTo ⟨2, ![512, 512]⟩ (shapeCast ⟨2, ![512, 1]⟩ x h1) h2 (ix2 p q) = x (ix1 p) := by
  refine (broadcastTo_apply _ h2 (ix2 p q) (ix2 p (0 : Fin 1)) fun a => ?_).trans ?_
  · match a with
    | ⟨0, _⟩ => rfl
    | ⟨1, _⟩ => rfl
  · refine shapeCast_apply x h1 _ _ ?_
    rw [Shape.rowMajor_val_two, Shape.rowMajor_val_one]
    show p.val = p.val * 1 + 0
    omega

/-- A [512] vector viewed as a row [1, 512] and repeated down 512 rows reads, at (p, q), the vector at q. -/
theorem rowOf_apply (x : (⟨1, ![512]⟩ : Shape).Idx → α)
    (h1 : (⟨1, ![512]⟩ : Shape).ShapeCasts ⟨2, ![1, 512]⟩)
    (h2 : (⟨2, ![1, 512]⟩ : Shape).Broadcasts ⟨2, ![512, 512]⟩) (p q : Fin 512) :
    broadcastTo ⟨2, ![512, 512]⟩ (shapeCast ⟨2, ![1, 512]⟩ x h1) h2 (ix2 p q) = x (ix1 q) := by
  refine (broadcastTo_apply _ h2 (ix2 p q) (ix2 (0 : Fin 1) q) fun a => ?_).trans ?_
  · match a with
    | ⟨0, _⟩ => rfl
    | ⟨1, _⟩ => rfl
  · refine shapeCast_apply x h1 _ _ ?_
    rw [Shape.rowMajor_val_two, Shape.rowMajor_val_one]
    show q.val = 0 * 512 + q.val
    omega

/-- The sum over the coordinate axis of the squared table, at p, is the squared norm of point p. -/
theorem sqnSum_apply (Z : FVec Ideal (⟨2, ![512, 2]⟩ : Shape) .f32)
    (h : (⟨2, ![512, 2]⟩ : Shape).Reduces [1] ⟨1, ![512]⟩) (hφ : FKind.Formats .f32)
    (hacc : (0x00000000#32 : BitVec 32) = 0x00000000#32) (p : Fin 512) :
    multiReduction .add [1] ⟨1, ![512]⟩ (mulf Z Z) 0x00000000#32 h hφ hacc (ix1 p) = sqn Z p :=
  (Ideal.multiReduction_add_single (mulf Z Z) 0x00000000#32 h hφ hacc (ix1 p)).trans
    (Finset.sum_congr rfl fun c _ => by
      have e : h.lift (ix1 p) c = ix2 p c := funext fun a => Fin.ext (by
        match a with
        | ⟨0, _⟩ => rfl
        | ⟨1, _⟩ => rfl)
      show Z (h.lift (ix1 p) c) * Z (h.lift (ix1 p) c) = _
      rw [e]
      rfl)

/-- The dimension numbers of the table's product with its transpose: rows by the coordinate axis, times the coordinate axis by columns. -/
abbrev gram : DotDims (⟨2, ![512, 2]⟩ : Shape) ⟨2, ![2, 512]⟩ ⟨2, ![512, 512]⟩ :=
  Cert.KernelIdeal.dot_S512x2_S2x512_S512x512_1_0_0_1_n_n

theorem gram_lhs_0 (i : (⟨2, ![512, 512]⟩ : Shape).Idx) (q : gram.contr.Idx) :
    (gram.lhsIdx i q 0).val = (i 0).val := by
  unfold DotDims.lhsIdx
  rw [dif_neg (show ¬(0 : Fin (⟨2, ![512, 2]⟩ : Shape).rank) ∈ gram.lhsBatch by decide),
    dif_pos (show (0 : Fin (⟨2, ![512, 2]⟩ : Shape).rank) ∈ gram.lhsNonContracting by decide)]
  rfl
theorem gram_lhs_1 (i : (⟨2, ![512, 512]⟩ : Shape).Idx) (q : gram.contr.Idx) :
    (gram.lhsIdx i q 1).val = (q ⟨0, by decide⟩).val :=
  gram.lhsIdx_val_of_single rfl i q
theorem gram_rhs_0 (i : (⟨2, ![512, 512]⟩ : Shape).Idx) (q : gram.contr.Idx) :
    (gram.rhsIdx i q 0).val = (q ⟨0, by decide⟩).val :=
  gram.rhsIdx_val_of_single rfl i q
theorem gram_rhs_1 (i : (⟨2, ![512, 512]⟩ : Shape).Idx) (q : gram.contr.Idx) :
    (gram.rhsIdx i q 1).val = (i 1).val := by
  unfold DotDims.rhsIdx
  rw [dif_neg (show ¬(1 : Fin (⟨2, ![2, 512]⟩ : Shape).rank) ∈ gram.rhsBatch by decide),
    dif_pos (show (1 : Fin (⟨2, ![2, 512]⟩ : Shape).rank) ∈ gram.rhsNonContracting by decide)]
  rfl

/-- The table times its transpose, into the zero accumulator, is at (p, q) the inner product of points p and q. -/
theorem gram_apply (Z : FVec Ideal (⟨2, ![512, 2]⟩ : Shape) .f32)
    (ht : (⟨2, ![512, 2]⟩ : Shape).Transposes [1, 0] ⟨2, ![2, 512]⟩) (prec : Option ContractPrecision)
    (p q : Fin 512) :
    matmul gram prec Z (transpose ⟨2, ![2, 512]⟩ [1, 0] Z ht) (constant ⟨2, ![512, 512]⟩ .f32 0x00000000#32) (ix2 p q)
      = dot Z p q := by
  refine (Ideal.matmul_constant_zero_apply gram prec Z _ (ix2 p q)).trans ?_
  rw [← Equiv.sum_comp (contrEquiv1 gram 2 rfl rfl).symm]
  refine Finset.sum_congr rfl fun c _ => ?_
  have hc := contrEquiv1_symm_val gram 2 rfl rfl c
  have el : gram.lhsIdx (ix2 p q) ((contrEquiv1 gram 2 rfl rfl).symm c) = ix2 p c := funext fun a => Fin.ext (by
    match a with
    | ⟨0, _⟩ => exact gram_lhs_0 _ _
    | ⟨1, _⟩ => exact (gram_lhs_1 _ _).trans hc)
  have er : gram.rhsIdx (ix2 p q) ((contrEquiv1 gram 2 rfl rfl).symm c) = ix2 c q := funext fun a => Fin.ext (by
    match a with
    | ⟨0, _⟩ => exact (gram_rhs_0 _ _).trans hc
    | ⟨1, _⟩ => exact gram_rhs_1 _ _)
  rw [el, er, transpose_ix2_apply Z ht c q]

/-- The guarded root of a squared distance: the root where it is positive, 0 elsewhere. -/
def rootOf (x : EReal) : EReal :=
  Scalar.select (Ideal.cmp .ogt x (Ideal.ofBits .f32 0x00000000#32))
    (Ideal.sqrt (Scalar.select (Ideal.cmp .ogt x (Ideal.ofBits .f32 0x00000000#32)) x (Ideal.ofBits .f32 0x3F800000#32)))
    (Ideal.ofBits .f32 0x00000000#32)

theorem distAt_eq_rootOf (Z : (⟨2, ![512, 2]⟩ : Shape).Idx → EReal) (i j : Fin 512) :
    distAt Z i j = rootOf (sqdist Z i j) := rfl

/-- The kernel's squared-distance term, before the sign test. -/
def sqTerm (Z : FVec Ideal Cert.KernelIdeal.S512x2 .f32) : FVec Ideal Cert.KernelIdeal.S512x512 .f32 :=
  subf
    (addf
      (broadcastTo Cert.KernelIdeal.S512x512
        (shapeCast Cert.KernelIdeal.S512x1
          (multiReduction .add [1] Cert.KernelIdeal.S512 (mulf Z Z) 0x00000000#32
            Cert.KernelIdeal.Gen.reduces_S512x2_S512 (.inl rfl) rfl)
          Cert.KernelIdeal.Gen.shapeCasts_S512_S512x1)
        Cert.KernelIdeal.Gen.broadcasts_S512x1_S512x512)
      (broadcastTo Cert.KernelIdeal.S512x512
        (shapeCast Cert.KernelIdeal.S1x512
          (multiReduction .add [1] Cert.KernelIdeal.S512 (mulf Z Z) 0x00000000#32
            Cert.KernelIdeal.Gen.reduces_S512x2_S512 (.inl rfl) rfl)
          Cert.KernelIdeal.Gen.shapeCasts_S512_S1x512)
        Cert.KernelIdeal.Gen.broadcasts_S1x512_S512x512))
    (mulf (broadcast Cert.KernelIdeal.S512x512 (Scalar.ofBits .f32 0x40000000#32))
      (matmul Cert.KernelIdeal.dot_S512x2_S2x512_S512x512_1_0_0_1_n_n (some .fp32) Z
        (transpose Cert.KernelIdeal.S2x512 [1, 0] Z Cert.KernelIdeal.Gen.transposes_S512x2_p1_0_S2x512)
        (constant Cert.KernelIdeal.S512x512 .f32 0x00000000#32)))

/-- The stored value is the guarded root of that term, entry by entry. -/
theorem k0_pay1_apply (Z : Vec Ideal Cert.KernelIdeal.S512x2 .f32) (y : Cert.KernelIdeal.S512x512.Idx) :
    Cert.KernelIdeal.Gen.k0_pay1 (F := Ideal) Z y = rootOf (sqTerm Z y) := rfl

/-- The term is the squared distance of the specification. -/
theorem sqTerm_apply (Z : FVec Ideal Cert.KernelIdeal.S512x2 .f32) (p q : Fin 512) :
    sqTerm Z (ix2 p q) = sqdist Z p q := by
  unfold sqTerm sqdist
  refine congrArg₂ (fun a b : EReal => a - b) (congrArg₂ (fun a b : EReal => a + b) ?_ ?_)
    (congrArg (fun b : EReal => Ideal.ofBits .f32 0x40000000#32 * b) ?_)
  · exact (colOf_apply _ _ _ p q).trans (sqnSum_apply Z _ _ _ p)
  · exact (rowOf_apply _ _ _ p q).trans (sqnSum_apply Z _ _ _ q)
  · exact gram_apply Z _ _ p q

/-- The distance kernel stores the distance matrix. -/
theorem k0_pay1_eq (Z : Vec Ideal Cert.KernelIdeal.S512x2 .f32) :
    Cert.KernelIdeal.Gen.k0_pay1 (F := Ideal) Z = dist Z := by
  funext y
  obtain ⟨p, q, rfl⟩ : ∃ (p q : Fin 512), y = ix2 p q := ⟨y 0, y 1, eq_ix2 y⟩
  rw [k0_pay1_apply, sqTerm_apply, dist_ix2, distAt_eq_rootOf]

end Cert.SoftRank

end
-- ==== Proof.KI.Final.lean ====
/-
  From blocks to arrays, for both regions. The distance region's grid has one point, whose output block is the whole
  [512, 512] array: the array after the region is the distance matrix of the point table as the region finds it. The rank
  region writes the [32, 512] block of row tile t / 4 back at the points t with t % 4 = 3; those sixteen blocks tile the
  [512, 512] array by rows, so if each written block is the matching rows of the soft rank, the array after the region is
  the soft rank.
-/
import proofs.«116070_j82609400971282_1_alg».proof.Proof.KI.R0
import proofs.«116070_j82609400971282_1_alg».proof.Proof.KI.R1
import proofs.«116070_j82609400971282_1_alg».proof.Proof.SoftRankDist
import proofs.«116070_j82609400971282_1_alg».proof.Proof.SoftRankSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Arrays
variable (V : (c : Dev nD) → (b : Ref sig .tc) → Buf (Elt Ideal) ((c : Thread nD τ).loc b))

/-- The zero offsets of a whole block. -/
theorem zero_offsets : (![0, 0] : Fin 2 → Nat) = fun _ => 0 := funext fun a => by fin_cases a <;> rfl

/-! ## The distance region -/

/-- At the one grid point both windows sit at block index (0, 0). -/
theorem block_index0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input block is the whole point table. -/
theorem iblk0_whole (c : Dev nD) (t : Fin cfg0.N) : iblk0 (F := Ideal) V c 0 t = V c main_arg0 := by
  obtain ⟨e0, e1, -, -⟩ := block_index0 t
  funext j
  unfold iblk0
  rw [View.read_apply]
  show V c main_arg0 (((cfg0.win 0).blk t).view.emb j) = V c main_arg0 j
  congr 1
  funext a; apply Fin.ext
  match a with
  | ⟨0, _⟩ => show win0_0.index t (0 : Fin 2) * 512 + 1 * (j 0).val = (j 0).val; omega
  | ⟨1, _⟩ => show win0_0.index t (1 : Fin 2) * 2 + 1 * (j 1).val = (j 1).val; omega

/-- What the point writes back is its block of the distance matrix of the point table. -/
theorem flushed0_eq (c : Dev nD) (t : Fin cfg0.N) :
    (dat0 (F := Ideal) V c).flushed 1 t = ((cfg0.win 1).blk t).view.read (Elt Ideal) (Cert.SoftRank.dist (V c main_arg0)) := by
  show (cfg0.win 1).cut (grid0.coords t) ((dat0 V c).after 1 t) = _
  rw [after0_1]
  unfold out0_1
  rw [View.canon_unit_zero zero_offsets]
  simp only [View.ld_unit_zero (S := S512x2) zero_offsets]
  rw [Cert.SoftRank.k0_pay1_eq, iblk0_whole]
  obtain ⟨-, -, e2, e3⟩ := block_index0 t
  funext j
  show Cert.SoftRank.dist (V c main_arg0) j = Cert.SoftRank.dist (V c main_arg0) (((cfg0.win 1).blk t).view.emb j)
  congr 1
  funext a; apply Fin.ext
  match a with
  | ⟨0, _⟩ => show (j 0).val = win0_1.index t (0 : Fin 2) * 512 + 1 * (j 0).val; omega
  | ⟨1, _⟩ => show (j 1).val = win0_1.index t (1 : Fin 2) * 512 + 1 * (j 1).val; omega

/-- An index of the distance array is in the point's block iff each coordinate is in the block's range on its axis. -/
theorem mem_blk0 (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- Every index of the distance array is in the one point's block. -/
theorem cover0 (i : S512x512.Idx) : ∃ t : Fin cfg0.N, (cfg0.win 1).flush t = true ∧ i ∈ ((cfg0.win 1).blk t).view.set := by
  refine ⟨t0_0, flush0_1 t0_0, ?_⟩
  rw [mem_blk0]
  obtain ⟨-, -, e2, e3⟩ := block_index0 t0_0
  have hi0 : (i 0).val < 512 := (i 0).isLt
  have hi1 : (i 1).val < 512 := (i 1).isLt
  intro a
  match a with
  | ⟨0, _⟩ => show win0_1.index t0_0 (0 : Fin 2) * 512 ≤ (i 0).val ∧ (i 0).val < win0_1.index t0_0 (0 : Fin 2) * 512 + 512; omega
  | ⟨1, _⟩ => show win0_1.index t0_0 (1 : Fin 2) * 512 ≤ (i 1).val ∧ (i 1).val < win0_1.index t0_0 (1 : Fin 2) * 512 + 512; omega

/-- The distance array after the region: the distance matrix of the point table as the region finds it. -/
theorem final0 (c : Dev nD) : (dat0 (F := Ideal) V c).arrAt 1 cfg0.N = Cert.SoftRank.dist (V c main_arg0) :=
  (dat0 V c).arrAt_eq_of_cover 1 (Cert.SoftRank.dist (V c main_arg0)) (fun t _ => flushed0_eq V c t) (cover0)

/-! ## The rank region -/

/-- At point t the output window sits at block index (t / 4, 0): the row tile, and the one column block. -/
theorem block_index1 : ∀ t : Fin cfg1.N, win1_3.index t (0 : Fin 2) = t.val / 4 ∧ win1_3.index t (1 : Fin 2) = 0 :=
  (by decide +kernel : ∀ t : Fin grid1.N, _)

/-- The grid of the rank region has 64 points. -/
theorem points1 : cfg1.N = 64 := N_1

/-- An index of the rank array is in point t's block iff each coordinate is in the block's range on its axis. -/
theorem mem_blk1 (t : Fin cfg1.N) (i : S512x512.Idx) :
    i ∈ ((cfg1.win 3).blk t).view.set ↔ ∀ a : Fin 2, win1_3.index t a * S32x512.size a ≤ (i a).val ∧ (i a).val < win1_3.index t a * S32x512.size a + S32x512.size a := by
  show i ∈ ((View.whole main_v1).slice (win1_3.rect t)).set ↔ _
  rw [View.set_slice_whole, Rect.mem_set_unit]
  exact Iff.rfl

/-- Row i of the rank array is covered by the last point of its row tile, t = 4 * (i / 32) + 3, which writes back. -/
theorem cover1 (i : S512x512.Idx) : ∃ t : Fin cfg1.N, (cfg1.win 3).flush t = true ∧ i ∈ ((cfg1.win 3).blk t).view.set := by
  have hi0 : (i 0).val < 512 := (i 0).isLt
  have hi1 : (i 1).val < 512 := (i 1).isLt
  have hN : cfg1.N = 64 := N_1
  let t : Fin cfg1.N := ⟨4 * ((i 0).val / 32) + 3, by rw [hN]; omega⟩
  have htv : t.val = 4 * ((i 0).val / 32) + 3 := rfl
  refine ⟨t, (flush1_3 t).mpr (by rw [htv]; omega), ?_⟩
  rw [mem_blk1]
  obtain ⟨e0, e1⟩ := block_index1 t
  intro a
  match a with
  | ⟨0, _⟩ => show win1_3.index t (0 : Fin 2) * 32 ≤ (i 0).val ∧ (i 0).val < win1_3.index t (0 : Fin 2) * 32 + 32; omega
  | ⟨1, _⟩ => show win1_3.index t (1 : Fin 2) * 512 ≤ (i 1).val ∧ (i 1).val < win1_3.index t (1 : Fin 2) * 512 + 512; omega

section Rank
variable (q : Fin cfg1.W → PosShare TreeShare)

/-- What a writing point writes back is its block of the soft rank, given that the output block it holds is the matching
    rows of the soft rank. -/
theorem flushed1_eq (c : Dev nD)
    (hflush : ∀ t : Fin cfg1.N, t.val % 4 = 3 → ∀ (r : Fin 32) (j : Fin 512) (h : 32 * (t.val / 4) + r.val < 512),
      (outsAt1 (F := Ideal) V c t.val t.isLt).1 (ValueIdx.ix2 r j)
        = Cert.SoftRank.rank (V c main_arg1) (V c main_v0) (ValueIdx.ix2 ⟨32 * (t.val / 4) + r.val, h⟩ j))
    (t : Fin cfg1.N) (hf : (cfg1.win 3).flush t = true) :
    (dat1 (F := Ideal) V q c).flushed 3 t
      = ((cfg1.win 3).blk t).view.read (Elt Ideal) (Cert.SoftRank.rank (V c main_arg1) (V c main_v0)) := by
  have h3 : t.val % 4 = 3 := (flush1_3 t).mp hf
  have hN : cfg1.N = 64 := N_1
  have ht : t.val < 64 := hN ▸ t.isLt
  obtain ⟨e0, e1⟩ := block_index1 t
  show (cfg1.win 3).cut (grid1.coords t) ((dat1 V q c).after 3 t) = _
  rw [after1_3]
  funext y
  obtain ⟨r, j, rfl⟩ : ∃ (r : Fin 32) (j : Fin 512), y = ValueIdx.ix2 r j := ⟨y 0, y 1, ValueIdx.eq_ix2 y⟩
  have hr : 32 * (t.val / 4) + r.val < 512 := by have := r.isLt; omega
  show (outsAt1 V c t.val t.isLt).1 (ValueIdx.ix2 r j)
    = Cert.SoftRank.rank (V c main_arg1) (V c main_v0) (((cfg1.win 3).blk t).view.emb (ValueIdx.ix2 r j))
  rw [hflush t h3 r j hr]
  congr 1
  funext a; apply Fin.ext
  match a with
  | ⟨0, _⟩ => show 32 * (t.val / 4) + r.val = win1_3.index t (0 : Fin 2) * 32 + 1 * r.val; omega
  | ⟨1, _⟩ => show j.val = win1_3.index t (1 : Fin 2) * 512 + 1 * j.val; omega

/-- The rank array after the region: the soft rank of the distance array as the region finds it, at the sharpness as
    the region finds it, given that every written block is the matching rows of the soft rank. -/
theorem final1 (c : Dev nD)
    (hflush : ∀ t : Fin cfg1.N, t.val % 4 = 3 → ∀ (r : Fin 32) (j : Fin 512) (h : 32 * (t.val / 4) + r.val < 512),
      (outsAt1 (F := Ideal) V c t.val t.isLt).1 (ValueIdx.ix2 r j)
        = Cert.SoftRank.rank (V c main_arg1) (V c main_v0) (ValueIdx.ix2 ⟨32 * (t.val / 4) + r.val, h⟩ j)) :
    (dat1 (F := Ideal) V q c).arrAt 3 cfg1.N = Cert.SoftRank.rank (V c main_arg1) (V c main_v0) :=
  (dat1 V q c).arrAt_eq_of_cover 3 (Cert.SoftRank.rank (V c main_arg1) (V c main_v0))
    (fun t hf => flushed1_eq V q c hflush t hf) (cover1)

end Rank

end Arrays

end Cert.KernelIdeal.Hand

end
-- ==== Proof.SoftRankTile.lean ====
/-
  The rank kernel's two stored values, index by index.

  The first grid step along the column axis stores the zero block. Every step then stores the block it
  found plus one tile: for row r and entry j of the row block, the sum over the 128 columns k of the
  column block of the logistic of α·(row(r,j) − col(r,k)). The row block is read through a trailing
  unit axis and repeated along the lanes, the column block through a middle unit axis and repeated
  along the entries, and the lane sum is the sum over the last coordinate.
-/
import proofs.«116070_j82609400971282_1_alg».proof.Proof.Gen.KernelIdeal.Skeleton
import proofs.«116070_j82609400971282_1_alg».proof.Proof.SoftRankSpec
import Idealize.ShloMosaic.Lib.ValueLayout
import Idealize.ShloMosaic.PureOps.Ideal.Laws

noncomputable section

open scoped BigOperators

namespace Cert.SoftRank

open Idealize.ShloMosaic Idealize.ShloMosaic.ValueIdx

variable {α : Type}

/-- A [32, 512] block viewed as [32, 512, 1] and repeated along a last axis of 128 reads, at (r, j, k), the block at (r, j). -/
theorem rowBlock_apply (x : (⟨2, ![32, 512]⟩ : Shape).Idx → α)
    (h1 : (⟨2, ![32, 512]⟩ : Shape).ShapeCasts ⟨3, ![32, 512, 1]⟩)
    (h2 : (⟨3, ![32, 512, 1]⟩ : Shape).Broadcasts ⟨3, ![32, 512, 128]⟩)
    (r : Fin 32) (j : Fin 512) (k : Fin 128) :
    broadcastTo ⟨3, ![32, 512, 128]⟩ (shapeCast ⟨3, ![32, 512, 1]⟩ x h1) h2 (ix3 r j k) = x (ix2 r j) := by
  refine (broadcastTo_apply _ h2 (ix3 r j k) (ix3 r j (0 : Fin 1)) fun a => ?_).trans ?_
  · match a with
    | ⟨0, _⟩ => rfl
    | ⟨1, _⟩ => rfl
    | ⟨2, _⟩ => rfl
  · refine shapeCast_apply x h1 _ _ ?_
    rw [Shape.rowMajor_val_three, Shape.rowMajor_val_two]
    show r.val * 512 + j.val = (r.val * 512 + j.val) * 1 + 0
    omega

/-- A [32, 128] block viewed as [32, 1, 128] and repeated along a middle axis of 512 reads, at (r, j, k), the block at (r, k). -/
theorem colBlock_apply (x : (⟨2, ![32, 128]⟩ : Shape).Idx → α)
    (h1 : (⟨2, ![32, 128]⟩ : Shape).ShapeCasts ⟨3, ![32, 1, 128]⟩)
    (h2 : (⟨3, ![32, 1, 128]⟩ : Shape).Broadcasts ⟨3, ![32, 512, 128]⟩)
    (r : Fin 32) (j : Fin 512) (k : Fin 128) :
    broadcastTo ⟨3, ![32, 512, 128]⟩ (shapeCast ⟨3, ![32, 1, 128]⟩ x h1) h2 (ix3 r j k) = x (ix2 r k) := by
  refine (broadcastTo_apply _ h2 (ix3 r j k) (ix3 r (0 : Fin 1) k) fun a => ?_).trans ?_
  · match a with
    | ⟨0, _⟩ => rfl
    | ⟨1, _⟩ => rfl
    | ⟨2, _⟩ => rfl
  · refine shapeCast_apply x h1 _ _ ?_
    rw [Shape.rowMajor_val_three, Shape.rowMajor_val_two]
    show r.val * 128 + k.val = (r.val * 1 + 0) * 128 + k.val
    omega

/-- The sum over the lanes of a [32, 512, 128] vector, at (r, j), is the sum over k of the vector at (r, j, k). -/
theorem laneSum_apply (src : FVec Ideal (⟨3, ![32, 512, 128]⟩ : Shape) .f32)
    (h : (⟨3, ![32, 512, 128]⟩ : Shape).Reduces [2] ⟨2, ![32, 512]⟩) (hφ : FKind.Formats .f32)
    (hacc : (0x00000000#32 : BitVec 32) = 0x00000000#32) (r : Fin 32) (j : Fin 512) :
    multiReduction .add [2] ⟨2, ![32, 512]⟩ src 0x00000000#32 h hφ hacc (ix2 r j) = ∑ k : Fin 128, src (ix3 r j k) :=
  (Ideal.multiReduction_add_single src 0x00000000#32 h hφ hacc (ix2 r j)).trans
    (Finset.sum_congr rfl fun k _ => congrArg src (funext fun c => Fin.ext (by
      match c with
      | ⟨0, _⟩ => rfl
      | ⟨1, _⟩ => rfl
      | ⟨2, _⟩ => rfl)))

/-- The first column step stores the zero block. -/
theorem k1_pay1_eq : Cert.KernelIdeal.Gen.k1_pay1 (F := Ideal) = fun _ => (0 : EReal) := by
  unfold Cert.KernelIdeal.Gen.k1_pay1
  dsimp only
  rw [shapeCast_self]
  funext i
  exact Ideal.ofBits_zero_f32

/-- Every column step stores the block it found plus the tile of its row block against its column block. -/
theorem k1_pay2_eq (a : Vec Ideal Cert.KernelIdeal.S1 .f32) (row : Vec Ideal Cert.KernelIdeal.S32x512 .f32)
    (col : Vec Ideal Cert.KernelIdeal.S32x128 .f32) (acc : Vec Ideal Cert.KernelIdeal.S32x512 .f32) :
    Cert.KernelIdeal.Gen.k1_pay2 (F := Ideal) a row col acc = fun y => acc y + tile a row col y := by
  funext y
  obtain ⟨r, j, rfl⟩ : ∃ (r : Fin 32) (j : Fin 512), y = ix2 r j := ⟨y 0, y 1, eq_ix2 y⟩
  unfold Cert.KernelIdeal.Gen.k1_pay2
  dsimp only
  simp only [shapeCast_self]
  refine congrArg (acc (ix2 r j) + ·) ?_
  refine (laneSum_apply _ _ _ _ r j).trans ?_
  rw [tile_ix2]
  refine Finset.sum_congr rfl fun k _ => ?_
  refine congrArg Ideal.logistic ?_
  refine congrArg₂ (· * ·) ?_ (congrArg₂ (· - ·) ?_ ?_)
  · exact congrArg a (funext fun c => Fin.ext (by match c with | ⟨0, _⟩ => rfl))
  · exact rowBlock_apply row _ _ r j k
  · exact colBlock_apply col _ _ r j k

end Cert.SoftRank

end
-- ==== Proof.SoftRankAcc.lean ====
/-
  The rank kernel's accumulation over the tiles of the summation index, in terms of the arrays.

  Each control case of the body leaves in the accumulator (and, at the last k tile, in the output block) the block
  it found plus one tile of the soft rank; at k tile 0 the block it found is the zero block it has just stored. The
  blocks the body reads are windows of the sharpness and of the distance matrix: at point t, rows 32 (t / 4) + r,
  and for the column block columns 128 (t % 4) + k. So after point t the accumulator holds, entry by entry, the
  left-nested sum from zero of the first (t % 4) + 1 groups of 128 columns, and at the last k tile the output block
  holds the whole sum over the 512 columns: the soft rank.
-/
import proofs.«116070_j82609400971282_1_alg».proof.Proof.KI.R1
import proofs.«116070_j82609400971282_1_alg».proof.Proof.SoftRankTile
import Idealize.ShloMosaic.Lib.Pipeline.Value

set_option maxRecDepth 16384

noncomputable section

open scoped BigOperators

namespace Cert.SoftRank

open Cert.KernelIdeal Cert.KernelIdeal.Gen Cert.KernelIdeal.Hand
open Idealize.ShloMosaic Idealize.ShloMosaic.TcCoe Idealize.ShloMosaic.Tactic Idealize.SL.Sem
open Idealize.ShloMosaic.ValueIdx

section Pieces
variable {F : FTy → Type} [FloatOps F]

theorem zeros1 : (![0] : Fin 1 → Nat) = fun _ => 0 := funext fun a => by fin_cases a; rfl
theorem zeros2 : (![0, 0] : Fin 2 → Nat) = fun _ => 0 := funext fun a => by fin_cases a <;> rfl

/-- At k tiles 1 and 2 the accumulator is left at the found block plus this tile. -/
theorem sout1_B_0_eq (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : ¬cond1_1 i)
    (x0 : Vec F S1 .f32) (x1 : Vec F S32x512 .f32) (x2 : Vec F S32x128 .f32) (xs0 : Vec F S32x512 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero zeros2]
  simp only [View.readAt_eq_ld, harg2.read_unread, harg3.read_unread, harg4.read_unread, harg6.read_unread,
    View.ld_unit_zero (S := S1) zeros1, View.ld_unit_zero (S := S32x512) zeros2, View.ld_unit_zero (S := S32x128) zeros2]

/-- At k tile 3 the accumulator is left at the found block plus this tile, -/
theorem sout1_C_0_eq (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero zeros2]
  simp only [View.readAt_eq_ld, harg2.read_unread, harg3.read_unread, harg4.read_unread, harg6.read_unread,
    View.ld_unit_zero (S := S1) zeros1, View.ld_unit_zero (S := S32x512) zeros2, View.ld_unit_zero (S := S32x128) zeros2]

/-- and the output block receives the accumulator as just stored: the same block. -/
theorem out1_C_3_eq (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : ¬cond1_0 i) (hc1 : cond1_1 i)
    (x0 : Vec F S1 .f32) (x1 : Vec F S32x512 .f32) (x2 : Vec F S32x128 .f32) (xs0 : Vec F S32x512 .f32) :
    out1_C_3 c i arg2 harg2 arg3 harg3 arg4 harg4 arg5 harg5 arg6 harg6 hc0 hc1 x0 x1 x2 xs0 = k1_pay2 x0 x1 x2 xs0 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero zeros2, View.readCov_unit_zero (S := S32x512) _ zeros2]
  simp only [View.readAt_eq_ld, harg2.read_unread, harg3.read_unread, harg4.read_unread, harg6.read_unread,
    View.ld_unit_zero (S := S1) zeros1, View.ld_unit_zero (S := S32x512) zeros2, View.ld_unit_zero (S := S32x128) zeros2]

/-- At k tile 0 the accumulator is zeroed, read back, and left at the zero block plus this tile. -/
theorem sout1_A_0_eq (c : Dev nD) (i : grid1.Coords) (arg2 : Memref sig .tc .vmem S1 .f32) (harg2 : arg2.IsWhole) (arg3 : Memref sig .tc .vmem S32x512 .f32) (harg3 : arg3.IsWhole) (arg4 : Memref sig .tc .vmem S32x128 .f32) (harg4 : arg4.IsWhole) (arg5 : Memref sig .tc .vmem S32x512 .f32) (harg5 : arg5.IsWhole) (arg6 : Memref sig .tc .vmem S32x512 .f32) (harg6 : arg6.IsWhole) (hc0 : cond1_0 i) (hc1 : ¬cond1_1 i)
    (x0 : Vec F S1 .f32) (x1 : Vec F S32x512 .f32) (x2 : Vec F S32x128 .f32) :
    sout1_A_0 c i arg2 harg2 arg3 harg3 arg4 harg4 arg5 harg5 arg6 harg6 hc0 hc1 x0 x1 x2 = k1_pay2 x0 x1 x2 k1_pay1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S32x512) zeros2, View.readCov_unit_zero (S := S32x512) _ zeros2]
  simp only [View.readAt_eq_ld, harg2.read_unread, harg3.read_unread, harg4.read_unread,
    View.ld_unit_zero (S := S1) zeros1, View.ld_unit_zero (S := S32x512) zeros2, View.ld_unit_zero (S := S32x128) zeros2]

end Pieces

section Blocks
variable {F : FTy → Type} [FloatOps F]
variable (V : (c : Dev nD) → (b : Ref sig .tc) → Buf (Elt F) ((c : Thread nD τ).loc b))

/-- The block indices over the grid: point t is row tile t / 4 and k tile t % 4; the sharpness has one block, the
    row block is (t / 4, 0), the column block (t / 4, t % 4). -/
theorem idx_facts1 : ∀ t : Fin cfg1.N, win1_0.index t (0 : Fin 1) = 0
    ∧ win1_1.index t (0 : Fin 2) = t.val / 4 ∧ win1_1.index t (1 : Fin 2) = 0
    ∧ win1_2.index t (0 : Fin 2) = t.val / 4 ∧ win1_2.index t (1 : Fin 2) = t.val % 4 :=
  (by decide +kernel : ∀ t : Fin grid1.N, _)

/-- The sharpness block is the sharpness. -/
theorem iblk1_0_apply (c : Dev nD) (t : Fin cfg1.N) :
    (iblk1 V c 0 t : Vec F S1 .f32) (ix1 (0 : Fin 1)) = (V c main_arg1 : S1.Idx → Elt F .f32) (ix1 (0 : Fin 1)) := by
  obtain ⟨e0, -⟩ := idx_facts1 t
  unfold iblk1
  rw [View.read_apply]
  show (V c main_arg1 : S1.Idx → Elt F .f32) _ = _
  refine congrArg _ (funext fun a => Fin.ext ?_)
  match a with
  | ⟨0, _⟩ => show win1_0.index t (0 : Fin 1) * 1 + 1 * 0 = 0; omega

/-- The row block at (r, j) is the distance matrix at row 32 (t / 4) + r, column j. -/
theorem iblk1_1_apply (c : Dev nD) (t : Fin cfg1.N) (r : Fin 32) (j : Fin 512) (i : Fin 512)
    (hi : i.val = 32 * (t.val / 4) + r.val) :
    (iblk1 V c 1 t : Vec F S32x512 .f32) (ix2 r j) = (V c main_v0 : S512x512.Idx → Elt F .f32) (ix2 i j) := by
  obtain ⟨-, e1, e2, -⟩ := idx_facts1 t
  unfold iblk1
  rw [View.read_apply]
  show (V c main_v0 : S512x512.Idx → Elt F .f32) _ = _
  refine congrArg _ (funext fun a => Fin.ext ?_)
  match a with
  | ⟨0, _⟩ => show win1_1.index t (0 : Fin 2) * 32 + 1 * r.val = i.val; omega
  | ⟨1, _⟩ => show win1_1.index t (1 : Fin 2) * 512 + 1 * j.val = j.val; omega

/-- The column block at (r, k) is the distance matrix at row 32 (t / 4) + r, column 128 (t % 4) + k. -/
theorem iblk1_2_apply (c : Dev nD) (t : Fin cfg1.N) (r : Fin 32) (k : Fin 128) (i kk : Fin 512)
    (hi : i.val = 32 * (t.val / 4) + r.val) (hk : kk.val = 128 * (t.val % 4) + k.val) :
    (iblk1 V c 2 t : Vec F S32x128 .f32) (ix2 r k) = (V c main_v0 : S512x512.Idx → Elt F .f32) (ix2 i kk) := by
  obtain ⟨-, -, -, e3, e4⟩ := idx_facts1 t
  unfold iblk1
  rw [View.read_apply]
  show (V c main_v0 : S512x512.Idx → Elt F .f32) _ = _
  refine congrArg _ (funext fun a => Fin.ext ?_)
  match a with
  | ⟨0, _⟩ => show win1_2.index t (0 : Fin 2) * 32 + 1 * r.val = i.val; omega
  | ⟨1, _⟩ => show win1_2.index t (1 : Fin 2) * 128 + 1 * k.val = kk.val; omega

end Blocks

section Accumulate

/-- One term of the soft rank of entry (i, j): the logistic of the sharpened difference of its distance and column k's. -/
def term (α : (⟨1, ![1]⟩ : Shape).Idx → EReal) (d : (⟨2, ![512, 512]⟩ : Shape).Idx → EReal) (i j k : Fin 512) : EReal :=
  Ideal.logistic (α (ix1 (0 : Fin 1)) * (d (ix2 i j) - d (ix2 i k)))

/-- The left-nested sum, from zero, of the first s groups of 128 columns (the column position taken modulo 512). -/
def part (α : (⟨1, ![1]⟩ : Shape).Idx → EReal) (d : (⟨2, ![512, 512]⟩ : Shape).Idx → EReal) (i j : Fin 512) : ℕ → EReal
  | 0 => 0
  | s + 1 => part α d i j s + ∑ k : Fin 128, term α d i j ⟨(128 * s + k.val) % 512, Nat.mod_lt _ (by decide)⟩

theorem part_zero (α : (⟨1, ![1]⟩ : Shape).Idx → EReal) (d : (⟨2, ![512, 512]⟩ : Shape).Idx → EReal) (i j : Fin 512) :
    part α d i j 0 = 0 := rfl

theorem part_succ (α : (⟨1, ![1]⟩ : Shape).Idx → EReal) (d : (⟨2, ![512, 512]⟩ : Shape).Idx → EReal) (i j : Fin 512) (s : ℕ) :
    part α d i j (s + 1)
      = part α d i j s + ∑ k : Fin 128, term α d i j ⟨(128 * s + k.val) % 512, Nat.mod_lt _ (by decide)⟩ := rfl

/-- The soft rank is the sum of the terms over all 512 columns. -/
theorem rank_eq_sum_term (α : (⟨1, ![1]⟩ : Shape).Idx → EReal) (d : (⟨2, ![512, 512]⟩ : Shape).Idx → EReal) (i j : Fin 512) :
    rank α d (ix2 i j) = ∑ k : Fin 512, term α d i j k := rfl

/-- Four groups make the soft rank. -/
theorem part_four (α : (⟨1, ![1]⟩ : Shape).Idx → EReal) (d : (⟨2, ![512, 512]⟩ : Shape).Idx → EReal) (i j : Fin 512) :
    part α d i j 4 = rank α d (ix2 i j) := by
  rw [rank_eq_sum_term, sum_split4 (term α d i j)]
  show (((part α d i j 0 + _) + _) + _) + _ = _
  rw [part_zero]
  refine congrArg₂ (fun a b : EReal => a + b) (congrArg₂ (fun a b : EReal => a + b)
    (congrArg₂ (fun a b : EReal => a + b) (congrArg (fun b : EReal => 0 + b) ?_) ?_) ?_) ?_
  · exact Finset.sum_congr rfl fun k _ => congrArg (term α d i j) (Fin.ext (by
      show (128 * 0 + k.val) % 512 = k.val
      omega))
  · exact Finset.sum_congr rfl fun k _ => congrArg (term α d i j) (Fin.ext (by
      show (128 * 1 + k.val) % 512 = 128 + k.val
      omega))
  · exact Finset.sum_congr rfl fun k _ => congrArg (term α d i j) (Fin.ext (by
      show (128 * 2 + k.val) % 512 = 256 + k.val
      omega))
  · exact Finset.sum_congr rfl fun k _ => congrArg (term α d i j) (Fin.ext (by
      show (128 * 3 + k.val) % 512 = 384 + k.val
      omega))

/-- One step, over variables: a block found at the first s groups, plus the tile of blocks that read the sharpness,
    row i of the distance matrix and its group s of columns, is the first s + 1 groups. -/
theorem step_apply (x0 : Vec Ideal S1 .f32) (x1 : Vec Ideal S32x512 .f32) (x2 : Vec Ideal S32x128 .f32)
    (acc : Vec Ideal S32x512 .f32) (α : (⟨1, ![1]⟩ : Shape).Idx → EReal) (d : (⟨2, ![512, 512]⟩ : Shape).Idx → EReal)
    (i j : Fin 512) (r : Fin 32) (s : ℕ)
    (h0 : x0 (ix1 (0 : Fin 1)) = α (ix1 (0 : Fin 1))) (h1 : x1 (ix2 r j) = d (ix2 i j))
    (h2 : ∀ k : Fin 128, x2 (ix2 r k) = d (ix2 i ⟨(128 * s + k.val) % 512, Nat.mod_lt _ (by decide)⟩))
    (hacc : acc (ix2 r j) = part α d i j s) :
    k1_pay2 (F := Ideal) x0 x1 x2 acc (ix2 r j) = part α d i j (s + 1) := by
  rw [k1_pay2_eq, part_succ]
  show acc (ix2 r j) + tile x0 x1 x2 (ix2 r j) = _
  rw [tile_ix2, hacc, h0, h1]
  refine congrArg (fun b : EReal => part α d i j s + b) (Finset.sum_congr rfl fun k _ => ?_)
  rw [h2 k]
  rfl

variable (V : (c : Dev nD) → (b : Ref sig .tc) → Buf (Elt Ideal) ((c : Thread nD τ).loc b))

/-- THE ACCUMULATION: after point n the accumulator holds, at (r, j), the first n % 4 + 1 groups of the soft rank of
    entry (32 (n / 4) + r, j). -/
theorem acc_eq (c : Dev nD) : ∀ (n : ℕ) (hn : n < cfg1.N) (r : Fin 32) (j i : Fin 512), i.val = 32 * (n / 4) + r.val →
    (outsAt1 (F := Ideal) V c n hn).2 (ix2 r j) = part (V c main_arg1) (V c main_v0) i j (n % 4 + 1) := by
  intro n
  induction n using Nat.strong_induction_on with
  | _ n ih =>
    intro hn r j i hi
    have hb0 := iblk1_0_apply V c ⟨n, hn⟩
    have hb1 := iblk1_1_apply V c ⟨n, hn⟩ r j i hi
    have hb2 : ∀ k : Fin 128, (iblk1 V c 2 ⟨n, hn⟩ : Vec Ideal S32x128 .f32) (ix2 r k)
        = (V c main_v0 : S512x512.Idx → Elt Ideal .f32) (ix2 i ⟨(128 * (n % 4) + k.val) % 512, Nat.mod_lt _ (by decide)⟩) :=
      fun k => iblk1_2_apply V c ⟨n, hn⟩ r k i _ hi (by
        show (128 * (n % 4) + k.val) % 512 = 128 * (n % 4) + k.val
        omega)
    by_cases h0 : n % 4 = 0
    · have h1 : ¬n % 4 = 3 := by omega
      have e := congrArg Prod.snd (outsAt1_A V c ⟨n, hn⟩ h0 h1)
      dsimp only at e
      rw [e, sout1_A_0_eq]
      refine step_apply (iblk1 V c 0 ⟨n, hn⟩) (iblk1 V c 1 ⟨n, hn⟩) (iblk1 V c 2 ⟨n, hn⟩) (k1_pay1 (F := Ideal))
        (V c main_arg1) (V c main_v0) i j r (n % 4) hb0 hb1 hb2 ?_
      rw [h0, k1_pay1_eq]
      rfl
    · have hacc := ih (n - 1) (by omega) (by omega) r j i (by omega)
      rw [show (n - 1) % 4 + 1 = n % 4 by omega] at hacc
      by_cases h1 : n % 4 = 3
      · have e := congrArg Prod.snd (outsAt1_C V c ⟨n, hn⟩ h0 h1)
        dsimp only at e
        rw [e, sout1_C_0_eq]
        exact step_apply (iblk1 V c 0 ⟨n, hn⟩) (iblk1 V c 1 ⟨n, hn⟩) (iblk1 V c 2 ⟨n, hn⟩) _
          (V c main_arg1) (V c main_v0) i j r (n % 4) hb0 hb1 hb2 hacc
      · have e := congrArg Prod.snd (outsAt1_B V c ⟨n, hn⟩ h0 h1)
        dsimp only at e
        rw [e, sout1_B_0_eq]
        exact step_apply (iblk1 V c 0 ⟨n, hn⟩) (iblk1 V c 1 ⟨n, hn⟩) (iblk1 V c 2 ⟨n, hn⟩) _
          (V c main_arg1) (V c main_v0) i j r (n % 4) hb0 hb1 hb2 hacc

/-- At the last k tile the output block receives the accumulator: the whole soft rank. -/
theorem out_eq (c : Dev nD) (t : Fin cfg1.N) (h3 : t.val % 4 = 3) (r : Fin 32) (j i : Fin 512)
    (hi : i.val = 32 * (t.val / 4) + r.val) :
    (outsAt1 (F := Ideal) V c t.val t.isLt).1 (ix2 r j) = rank (V c main_arg1) (V c main_v0) (ix2 i j) := by
  have h0 : ¬t.val % 4 = 0 := by omega
  have e1 := congrArg Prod.fst (outsAt1_C V c t h0 h3)
  have e2 := congrArg Prod.snd (outsAt1_C V c t h0 h3)
  dsimp only at e1 e2
  have hacc := acc_eq V c t.val t.isLt r j i hi
  rw [e2, sout1_C_0_eq] at hacc
  rw [e1, out1_C_3_eq, hacc, h3]
  exact part_four _ _ i j

end Accumulate

end Cert.SoftRank

end
-- ==== Proof.KI.Value.lean ====
/-
  The idealized kernel program's result, as one function of its arguments: the distance region leaves the pairwise
  distances of the launched coordinates in the distance array; the rank region, reading that array and the launched
  scale, leaves in the output array the sum over all 512 indices k of logistic(alpha · (d(i, j) − d(i, k))) — its four
  partial sums over tiles of 128 added to zero, which over the extended reals is the whole sum.
-/
import proofs.«116070_j82609400971282_1_alg».proof.Proof.KI.Run
import proofs.«116070_j82609400971282_1_alg».proof.Proof.KI.Final
import proofs.«116070_j82609400971282_1_alg».proof.Proof.SoftRankAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- After the distance region the distance array holds the pairwise distances of the launched coordinates. -/
theorem W1_dist (c : Dev nD) : Vr1 m c main_v0 = Cert.SoftRank.dist (m ((c : Thread nD τ).loc main_arg0)) :=
  (W1_arr m c 1).trans (final0 (Vr0 m) c)

/-- The distance region leaves the scale as launched. -/
theorem W1_alpha (c : Dev nD) : Vr1 m c main_arg1 = m ((c : Thread nD τ).loc main_arg1) :=
  W1_of_ne m c main_arg1 (by decide)

/-- After the rank region the output array holds the soft ranks of those distances. -/
theorem W2_rank (c : Dev nD) : W2 m c (Proc.devRef .tc main_v1)
    = Cert.SoftRank.rank (m ((c : Thread nD τ).loc main_arg1)) (Cert.SoftRank.dist (m ((c : Thread nD τ).loc main_arg0))) := by
  refine (W2_out m c).trans ?_
  rw [final1 (Vr1 m) q1 c (fun t h3 r j h => Cert.SoftRank.out_eq (Vr1 m) c t h3 r j ⟨32 * (t.val / 4) + r.val, h⟩ rfl), W1_dist, W1_alpha]

/-- Every weakly fair execution of the idealized kernel program terminates without fault, with the output array at the
    soft ranks of the pairwise distances of the launched arguments, and the arguments as launched. -/
theorem value : θ_run defs (onTc (τ := τ) (main (F := Ideal))) ⟨m, fun _ => 0, ρ⟩ (fun r => ∀ c : Dev nD,
      r.2.mem ((c.tc : Thread nD τ).loc main_v1)
        = Cert.SoftRank.rank (m ((c.tc : Thread nD τ).loc main_arg1)) (Cert.SoftRank.dist (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_v1 (by decide))).trans (W2_rank m c),
    (h c _ (mem_uc main_arg0 (by decide))).trans (W2_main_arg0 m c),
    (h c _ (mem_uc main_arg1 (by decide))).trans (W2_main_arg1 m c)⟩) (run_main m ρ)

end Cert.KernelIdeal.Hand

end
-- ==== Proof.SoftRankRef.lean ====
/-
  The reference program's result, index by index: it is the soft rank of the distance matrix of the
  specification.

  Stage by stage: the squared norms are the host's sum, from the zero word, over the two coordinates;
  they enter the squared distance once down the rows and once along the columns; the table times its
  transpose is the inner product; the distance is the guarded root. The result sums, from the zero
  word, over every column k the quotient 1 / (1 + exp(−α·(d(i,j) − d(i,k)))), which is the logistic
  function of α·(d(i,j) − d(i,k)), the word 0x3F800000 being the real one.
-/
import proofs.«116070_j82609400971282_1_alg».proof.Proof.Gen.ReferenceIdeal.Read
import proofs.«116070_j82609400971282_1_alg».proof.Proof.SoftRankSpec
import Idealize.ShloMosaic.Lib.IdealHost

noncomputable section

open scoped BigOperators

namespace Cert.SoftRank

open Idealize.ShloMosaic Idealize.ShloMosaic.ValueIdx Cert.ReferenceIdeal.Read

/-- The reference's squared norms. -/
theorem ref_sqn (x0 : (⟨Cert.ReferenceIdeal.S512x2, .f32⟩ : BufTy).Contents (Elt Ideal)) (p : Fin 512) :
    val_main_v1 (F := Ideal) x0 (ix1 p) = sqn x0 p := by
  rw [val_main_v1_apply, val_main_cst_apply]
  show Ideal.ofBits .f32 0x00000000#32 + _ = _
  rw [Ideal.ofBits_zero_f32, zero_add]
  refine Finset.sum_congr rfl fun c _ => ?_
  have e : idx_main_v1 (ix1 p) c = ix2 p c := funext fun a => Fin.ext (by
    match a with
    | ⟨0, _⟩ => rfl
    | ⟨1, _⟩ => rfl)
  rw [val_main_v0_apply, e]
  rfl

/-- The squared norms of the row's point and of the column's point, added. -/
theorem ref_norms (x0 : (⟨Cert.ReferenceIdeal.S512x2, .f32⟩ : BufTy).Contents (Elt Ideal)) (p q : Fin 512) :
    val_main_v6 (F := Ideal) x0 (ix2 p q) = sqn x0 p + sqn x0 q := by
  have e1 : idx_main_v2 (idx_main_v4 (ix2 p q)) = ix1 p := funext fun a => Fin.ext (by
    match a with
    | ⟨0, _⟩ => rfl)
  have e2 : idx_main_v3 (idx_main_v5 (ix2 p q)) = ix1 q := funext fun a => Fin.ext (by
    match a with
    | ⟨0, _⟩ => rfl)
  rw [val_main_v6_apply, val_main_v4_apply, val_main_v2_apply, val_main_v5_apply, val_main_v3_apply, e1, e2,
    ref_sqn, ref_sqn]
  rfl

/-- The reference's product of the table with its transpose is the inner product. -/
theorem ref_dot (x0 : (⟨Cert.ReferenceIdeal.S512x2, .f32⟩ : BufTy).Contents (Elt Ideal)) (p q : Fin 512) :
    val_main_v8 (F := Ideal) x0 (ix2 p q) = dot x0 p q := by
  rw [val_main_v8_apply]
  refine Finset.sum_congr rfl fun c _ => ?_
  have el : lidx_main_v8 (ix2 p q) c = ix2 p c := funext fun a => Fin.ext (by
    match a with
    | ⟨0, _⟩ => rfl
    | ⟨1, _⟩ => rfl)
  have er : idx_main_v7 (ridx_main_v8 (ix2 p q) c) = ix2 q c := funext fun a => Fin.ext (by
    match a with
    | ⟨0, _⟩ => rfl
    | ⟨1, _⟩ => rfl)
  rw [val_main_v7_apply, el, er]

/-- The reference's squared distance. -/
theorem ref_sqdist (x0 : (⟨Cert.ReferenceIdeal.S512x2, .f32⟩ : BufTy).Contents (Elt Ideal)) (p q : Fin 512) :
    val_main_v11 (F := Ideal) x0 (ix2 p q) = sqdist x0 p q := by
  rw [val_main_v11_apply, val_main_v10_apply, val_main_v9_apply, val_main_cst_0_apply, ref_norms, ref_dot]
  rfl

/-- The reference's distance matrix. -/
theorem ref_dist (x0 : (⟨Cert.ReferenceIdeal.S512x2, .f32⟩ : BufTy).Contents (Elt Ideal)) (p q : Fin 512) :
    val_main_v16 (F := Ideal) x0 (ix2 p q) = distAt x0 p q := by
  rw [val_main_v16_apply, val_main_v15_apply, val_main_v14_apply, val_main_v13_apply, val_main_v12_apply,
    val_main_cst_1_apply, val_main_call0_v1_apply, val_main_call0_v0_apply, val_main_cst_2_apply,
    val_main_call1_v1_apply, val_main_call1_v0_apply, val_main_cst_3_apply, ref_sqdist]
  rfl

/-- The sharpness, reshaped to a scalar, is the one entry of the argument. -/
theorem ref_alpha (x1 : (⟨Cert.ReferenceIdeal.S1, .f32⟩ : BufTy).Contents (Elt Ideal)) (i : Cert.ReferenceIdeal.S_.Idx) :
    val_main_v22 (F := Ideal) x1 i = x1 (ix1 (0 : Fin 1)) := by
  unfold val_main_v22 shapeCast
  refine congrArg x1 (funext fun a => Fin.ext ?_)
  match a with
  | ⟨0, _⟩ =>
    have h := (Shape.reshapeEquiv Cert.ReferenceIdeal.Gen.shapeCasts_S1_S_ i (0 : Fin 1)).isLt
    show (Shape.reshapeEquiv Cert.ReferenceIdeal.Gen.shapeCasts_S1_S_ i (0 : Fin 1)).val = 0
    have h' : (Shape.reshapeEquiv Cert.ReferenceIdeal.Gen.shapeCasts_S1_S_ i (0 : Fin 1)).val < 1 := h
    omega

/-- One term of the reference's last sum: the logistic function of the sharpened difference of two distances. -/
theorem ref_term (x0 : (⟨Cert.ReferenceIdeal.S512x2, .f32⟩ : BufTy).Contents (Elt Ideal))
    (x1 : (⟨Cert.ReferenceIdeal.S1, .f32⟩ : BufTy).Contents (Elt Ideal)) (p q k : Fin 512) :
    val_main_v30 (F := Ideal) x0 x1 (ix3 p q k)
      = Ideal.logistic (x1 (ix1 (0 : Fin 1)) * (distAt x0 p q - distAt x0 p k)) := by
  have e1 : idx_main_v17 (idx_main_v19 (ix3 p q k)) = ix2 p q := funext fun a => Fin.ext (by
    match a with
    | ⟨0, _⟩ => rfl
    | ⟨1, _⟩ => rfl)
  have e2 : idx_main_v18 (idx_main_v20 (ix3 p q k)) = ix2 p k := funext fun a => Fin.ext (by
    match a with
    | ⟨0, _⟩ => rfl
    | ⟨1, _⟩ => rfl)
  rw [val_main_v30_apply, val_main_v29_apply, val_main_cst_5_apply, val_main_v28_apply, val_main_v27_apply,
    val_main_cst_4_apply, val_main_v26_apply, val_main_v25_apply, val_main_v24_apply, val_main_v23_apply,
    val_main_v21_apply, val_main_v19_apply, val_main_v17_apply, val_main_v20_apply, val_main_v18_apply,
    e1, e2, ref_dist, ref_dist, ref_alpha]
  show Ideal.div (Ideal.ofBits .f32 0x3F800000#32)
      (Ideal.ofBits .f32 0x3F800000#32 + Ideal.exp (-(x1 (ix1 (0 : Fin 1)) * (distAt x0 p q - distAt x0 p k)))) = _
  rw [Ideal.ofBits_one_f32]
  rfl

/-- The reference computes the soft rank of the distance matrix. -/
theorem ref_eq (x0 : (⟨Cert.ReferenceIdeal.S512x2, .f32⟩ : BufTy).Contents (Elt Ideal))
    (x1 : (⟨Cert.ReferenceIdeal.S1, .f32⟩ : BufTy).Contents (Elt Ideal)) :
    val_main_v31 (F := Ideal) x0 x1 = rank x1 (dist x0) := by
  funext y
  obtain ⟨p, q, rfl⟩ : ∃ (p q : Fin 512), y = ix2 p q := ⟨y 0, y 1, eq_ix2 y⟩
  rw [val_main_v31_apply, val_main_cst_6_apply, rank_ix2]
  show Ideal.ofBits .f32 0x00000000#32 + _ = _
  rw [Ideal.ofBits_zero_f32, zero_add]
  refine Finset.sum_congr rfl fun k _ => ?_
  have e : idx_main_v31 (ix2 p q) k = ix3 p q k := funext fun a => Fin.ext (by
    match a with
    | ⟨0, _⟩ => rfl
    | ⟨1, _⟩ => rfl
    | ⟨2, _⟩ => rfl)
  rw [e, ref_term, dist_ix2, dist_ix2]

end Cert.SoftRank

end
-- ==== Proof.lean ====
/-
  The certificate's five claims. Both programs compute, from the point coordinates Z : [512, 2] and the scale alpha : [1],
  the soft ranks  out(i, j) = ∑ₖ logistic(alpha · (d(i, j) − d(i, k)))  of the pairwise distances
  d(i, j) = √(|zᵢ|² + |zⱼ|² − 2 zᵢ·zⱼ) where that is positive, and 0 elsewhere. The kernel program computes d in one
  block and the sum over k in four tiles of 128 accumulated from zero; the reference computes the whole sum at once and
  spells the logistic as 1 / (1 + exp(−x)). Over the extended reals these are one function of the arguments: the
  logistic is the same function on both sides, and addition of extended reals is commutative and associative, so the
  four partial sums added to zero are the whole sum. No finiteness of the inputs is needed.
  The three frame claims: each kernel program runs both of its regions in order to the end and leaves its arguments
  untouched; the reference is a straight line of host operations. Nothing was rewritten in the idealized kernel, so
  there is nothing to preserve.
-/
import proofs.«116070_j82609400971282_1_alg».proof.Defs
import proofs.«116070_j82609400971282_1_alg».proof.Proof.Gen.Kernel
import proofs.«116070_j82609400971282_1_alg».proof.Proof.Gen.KernelIdeal
import proofs.«116070_j82609400971282_1_alg».proof.Proof.Gen.ReferenceIdeal
import proofs.«116070_j82609400971282_1_alg».proof.Proof.Gen.Pre_finite_inputs
import proofs.«116070_j82609400971282_1_alg».proof.Proof.Gen.ReferenceIdeal.Read
import proofs.«116070_j82609400971282_1_alg».proof.Proof.K.Run
import proofs.«116070_j82609400971282_1_alg».proof.Proof.KI.Value
import proofs.«116070_j82609400971282_1_alg».proof.Proof.SoftRankRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the soft ranks of the pairwise distances of the arguments they agree on. -/
theorem algebraic : Cert.algebraic_KernelIdeal_ReferenceIdeal := by
  intro m ρ m' ρ' _ hagree
  refine ⟨_, Cert.KernelIdeal.Hand.value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.SoftRank.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
